-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v65)) (v1 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x7x400x400 : Shape := ⟨4, ![32, 7, 400, 400]⟩
abbrev S32x64x7 : Shape := ⟨3, ![32, 64, 7]⟩
abbrev S_ : Shape := ⟨0, ![]⟩

class Facts : Prop where
  bcast_S_S32x7x400x400 : S_.BroadcastsInDim S32x7x400x400 (![] : Fin 0 → Fin S32x7x400x400.rank)
  reducesTo_S32x7x400x400_S_d0_1_2_3 : S32x7x400x400.ReducesTo [0, 1, 2, 3] S_
  h_S_ : 0 < S_.numel
  bcast_S_S32x64x7 : S_.BroadcastsInDim S32x64x7 (![] : Fin 0 → Fin S32x64x7.rank)
  reducesTo_S32x64x7_S_d0_1_2 : S32x64x7.ReducesTo [0, 1, 2] S_

variable [Facts]

def fn {F : FTy → Type} [FloatOps F] (main_arg0 : FVec F S32x7x400x400 .f32) (main_arg1 : FVec F S32x64x7 .f32) : IVec S_ 1 :=
  let main_v0 : FVec F S32x7x400x400 .f32 := Host.absf main_arg0
  let main_cst : FVec F S_ .f32 := constant S_ .f32 0x7F800000#32
  let main_v1 : FVec F S32x7x400x400 .f32 := broadcastInDim S32x7x400x400 ![] bcast_S_S32x7x400x400 main_cst
  let main_v2 : IVec S32x7x400x400 1 := cmpf .olt main_v0 main_v1
  let main_c : IVec S_ 1 := constantI S_ 1 1#1
  let main_v3 : IVec S_ 1 := (fun x v => Host.reduce IntOp.andi x v reducesTo_S32x7x400x400_S_d0_1_2_3 h_S_) main_v2 main_c
  let main_v4 : FVec F S32x64x7 .f32 := Host.absf main_arg1
  let main_cst_0 : FVec F S_ .f32 := constant S_ .f32 0x7F800000#32
  let main_v5 : FVec F S32x64x7 .f32 := broadcastInDim S32x64x7 ![] bcast_S_S32x64x7 main_cst_0
  let main_v6 : IVec S32x64x7 1 := cmpf .olt main_v4 main_v5
  let main_c_1 : IVec S_ 1 := constantI S_ 1 1#1
  let main_v7 : IVec S_ 1 := (fun x v => Host.reduce IntOp.andi x v reducesTo_S32x64x7_S_d0_1_2 h_S_) main_v6 main_c_1
  let main_v8 : IVec S_ 1 := andi main_v3 main_v7
  main_v8
-- ==== Kernel.lean ====
abbrev S32x7x400x400 : Shape := ⟨4, ![32, 7, 400, 400]⟩
abbrev S32x64x7 : Shape := ⟨3, ![32, 64, 7]⟩
abbrev S32x64x1 : Shape := ⟨3, ![32, 64, 1]⟩
abbrev S32x64 : Shape := ⟨2, ![32, 64]⟩
abbrev S_ : Shape := ⟨0, ![]⟩
abbrev S64 : Shape := ⟨1, ![64]⟩
abbrev S32x1x64 : Shape := ⟨3, ![32, 1, 64]⟩
abbrev S32x64x64 : Shape := ⟨3, ![32, 64, 64]⟩
abbrev S1x1x64 : Shape := ⟨3, ![1, 1, 64]⟩
abbrev S1x64x1 : Shape := ⟨3, ![1, 64, 1]⟩
abbrev S1x64x64 : Shape := ⟨3, ![1, 64, 64]⟩
abbrev S32 : Shape := ⟨1, ![32]⟩
abbrev S32x1 : Shape := ⟨2, ![32, 1]⟩
abbrev S32x64x3 : Shape := ⟨3, ![32, 64, 3]⟩
abbrev S2048x7 : Shape := ⟨2, ![2048, 7]⟩
abbrev S1x1 : Shape := ⟨2, ![1, 1]⟩
abbrev S2048 : Shape := ⟨1, ![2048]⟩
abbrev S2048x1 : Shape := ⟨2, ![2048, 1]⟩
abbrev S1 : Shape := ⟨1, ![1]⟩

abbrev nBuf : Space → Nat
  | .hbm => 94
  | .vmem => 5
  | .smem => 0
  | _ => 0

abbrev bufTy : (tb : Table) → Fin (tcTables nBuf tb) → BufTy
  | .hbm, ⟨0, _⟩ => ⟨S32x7x400x400, .f32⟩
  | .hbm, ⟨1, _⟩ => ⟨S32x64x7, .f32⟩
  | .hbm, ⟨2, _⟩ => ⟨S32x64x1, .f32⟩
  | .hbm, ⟨3, _⟩ => ⟨S32x64, .f32⟩
  | .hbm, ⟨4, _⟩ => ⟨S_, .f32⟩
  | .hbm, ⟨5, _⟩ => ⟨S32x64, .f32⟩
  | .hbm, ⟨6, _⟩ => ⟨S32x64, .f32⟩
  | .hbm, ⟨7, _⟩ => ⟨S32x64, .f32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S32x64, .f32⟩
  | .hbm, ⟨12, _⟩ => ⟨S32x64, .f32⟩
  | .hbm, ⟨13, _⟩ => ⟨S_, .f32⟩
  | .hbm, ⟨14, _⟩ => ⟨S32x64, .f32⟩
  | .hbm, ⟨15, _⟩ => ⟨S32x64, .f32⟩
  | .hbm, ⟨16, _⟩ => ⟨S32x64, .i32⟩
  | .hbm, ⟨17, _⟩ => ⟨S32x64x1, .f32⟩
  | .hbm, ⟨18, _⟩ => ⟨S32x64, .f32⟩
  | .hbm, ⟨19, _⟩ => ⟨S_, .f32⟩
  | .hbm, ⟨20, _⟩ => ⟨S32x64, .f32⟩
  | .hbm, ⟨21, _⟩ => ⟨S32x64, .f32⟩
  | .hbm, ⟨22, _⟩ => ⟨S32x64, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S32x64, .f32⟩
  | .hbm, ⟨27, _⟩ => ⟨S32x64, .f32⟩
  | .hbm, ⟨28, _⟩ => ⟨S_, .f32⟩
  | .hbm, ⟨29, _⟩ => ⟨S32x64, .f32⟩
  | .hbm, ⟨30, _⟩ => ⟨S32x64, .f32⟩
  | .hbm, ⟨31, _⟩ => ⟨S32x64, .i32⟩
  | .hbm, ⟨32, _⟩ => ⟨S_, .i32⟩
  | .hbm, ⟨33, _⟩ => ⟨S32x64, .i32⟩
  | .hbm, ⟨34, _⟩ => ⟨S32x64, .i32⟩
  | .hbm, ⟨35, _⟩ => ⟨S32x64, .i32⟩
  | .hbm, ⟨36, _⟩ => ⟨S64, .i32⟩
  | .hbm, ⟨37, _⟩ => ⟨S32x64x1, .i32⟩
  | .hbm, ⟨38, _⟩ => ⟨S32x1x64, .i32⟩
  | .hbm, ⟨39, _⟩ => ⟨S32x64x64, .i32⟩
  | .hbm, ⟨40, _⟩ => ⟨S32x64x64, .i32⟩
  | .hbm, ⟨41, _⟩ => ⟨S32x64x64, .i1⟩
  | .hbm, ⟨42, _⟩ => ⟨S1x1x64, .i32⟩
  | .hbm, ⟨43, _⟩ => ⟨S1x64x1, .i32⟩
  | .hbm, ⟨44, _⟩ => ⟨S1x64x64, .i32⟩
  | .hbm, ⟨45, _⟩ => ⟨S1x64x64, .i32⟩
  | .hbm, ⟨46, _⟩ => ⟨S1x64x64, .i1⟩
  | .hbm, ⟨47, _⟩ => ⟨S32x64x64, .i1⟩
  | .hbm, ⟨48, _⟩ => ⟨S32x64x64, .i1⟩
  | .hbm, ⟨49, _⟩ => ⟨S_, .i1⟩
  | .hbm, ⟨50, _⟩ => ⟨S32x64, .i1⟩
  | .hbm, ⟨51, _⟩ => ⟨S32x64, .i1⟩
  | .hbm, ⟨52, _⟩ => ⟨S32, .i32⟩
  | .hbm, ⟨53, _⟩ => ⟨S32x1, .i32⟩
  | .hbm, ⟨54, _⟩ => ⟨S32x64, .i32⟩
  | .hbm, ⟨55, _⟩ => ⟨S_, .i32⟩
  | .hbm, ⟨56, _⟩ => ⟨S32x64, .i32⟩
  | .hbm, ⟨57, _⟩ => ⟨S32x64, .i1⟩
  | .hbm, ⟨58, _⟩ => ⟨S_, .i32⟩
  | .hbm, ⟨59, _⟩ => ⟨S32x64, .i32⟩
  | .hbm, ⟨60, _⟩ => ⟨S32x64, .i32⟩
  | .hbm, ⟨61, _⟩ => ⟨S32x64, .i32⟩
  | .hbm, ⟨62, _⟩ => ⟨S_, .i32⟩
  | .hbm, ⟨63, _⟩ => ⟨S32x64, .i32⟩
  | .hbm, ⟨64, _⟩ => ⟨S32x64, .i1⟩
  | .hbm, ⟨65, _⟩ => ⟨S_, .i32⟩
  | .hbm, ⟨66, _⟩ => ⟨S32x64, .i32⟩
  | .hbm, ⟨67, _⟩ => ⟨S32x64, .i32⟩
  | .hbm, ⟨68, _⟩ => ⟨S32x64, .i32⟩
  | .hbm, ⟨69, _⟩ => ⟨S_, .i32⟩
  | .hbm, ⟨70, _⟩ => ⟨S32x64, .i32⟩
  | .hbm, ⟨71, _⟩ => ⟨S32x64, .i1⟩
  | .hbm, ⟨72, _⟩ => ⟨S_, .i32⟩
  | .hbm, ⟨73, _⟩ => ⟨S32x64, .i32⟩
  | .hbm, ⟨74, _⟩ => ⟨S32x64, .i32⟩
  | .hbm, ⟨75, _⟩ => ⟨S32x64, .i32⟩
  | .hbm, ⟨76, _⟩ => ⟨S32x64x1, .i32⟩
  | .hbm, ⟨77, _⟩ => ⟨S32x64x1, .i32⟩
  | .hbm, ⟨78, _⟩ => ⟨S32x64x1, .i32⟩
  | .hbm, ⟨79, _⟩ => ⟨S32x64x3, .i32⟩
  | .hbm, ⟨80, _⟩ => ⟨S32x64x7, .f32⟩
  | .hbm, ⟨81, _⟩ => ⟨S32x64, .f32⟩
  | .hbm, ⟨82, _⟩ => ⟨S32x64x1, .f32⟩
  | .hbm, ⟨83, _⟩ => ⟨S32x64x7, .f32⟩
  | .hbm, ⟨84, _⟩ => ⟨S2048x7, .f32⟩
  | .hbm, ⟨85, _⟩ => ⟨S2048x7, .f32⟩
  | .hbm, ⟨86, _⟩ => ⟨S2048x7, .f32⟩
  | .hbm, ⟨87, _⟩ => ⟨S1x1, .f32⟩
  | .hbm, ⟨88, _⟩ => ⟨S1x1, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S2048x7, .f32⟩
  | .local _ .vmem, ⟨1, _⟩ => ⟨S2048x7, .f32⟩
  | .local _ .vmem, ⟨2, _⟩ => ⟨S2048x7, .f32⟩
  | .local _ .vmem, ⟨3, _⟩ => ⟨S1x1, .f32⟩
  | .local _ .vmem, ⟨4, _⟩ => ⟨S1x1, .f32⟩
  | _, _ => ⟨S32x7x400x400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_c_4 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61_0 : Ref sig .tc := ⟨.hbm, 87, rfl⟩
abbrev main_v61_1 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x7 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x7 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  slices_S32x64x7_S32x64x1_0_0_0 : S32x64x7.Slices ![0, 0, 0] S32x64x1
  shapeCasts_S32x64x1_S32x64 : S32x64x1.ShapeCasts S32x64
  bcast_S_S32x64 : S_.BroadcastsInDim S32x64 (![] : Fin 0 → Fin S32x64.rank)
  slices_S32x64x7_S32x64x1_0_0_1 : S32x64x7.Slices ![0, 0, 1] S32x64x1
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  bcast_S64_S1x1x64_2 : S64.BroadcastsInDim S1x1x64 (![2] : Fin 1 → Fin S1x1x64.rank)
  bcast_S64_S1x64x1_1 : S64.BroadcastsInDim S1x64x1 (![1] : Fin 1 → Fin S1x64x1.rank)
  bcast_S1x1x64_S1x64x64_0_1_2 : S1x1x64.BroadcastsInDim S1x64x64 (![0, 1, 2] : Fin 3 → Fin S1x64x64.rank)
  bcast_S1x64x1_S1x64x64_0_1_2 : S1x64x1.BroadcastsInDim S1x64x64 (![0, 1, 2] : Fin 3 → Fin S1x64x64.rank)
  bcast_S1x64x64_S32x64x64_0_1_2 : S1x64x64.BroadcastsInDim S32x64x64 (![0, 1, 2] : Fin 3 → Fin S32x64x64.rank)
  reducesTo_S32x64x64_S32x64_d2 : S32x64x64.ReducesTo [2] S32x64
  h_S_ : 0 < S_.numel
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  concatenates_S32x64x1_S32x64x1_S32x64x1_S32x64x3_d2 : Shape.Concatenates [S32x64x1, S32x64x1, S32x64x1] S32x64x3 2
  bcast_S32x64x1_S32x64x7_0_1_2 : S32x64x1.BroadcastsInDim S32x64x7 (![0, 1, 2] : Fin 3 → Fin S32x64x7.rank)
  shapeCasts_S32x64x7_S2048x7 : S32x64x7.ShapeCasts S2048x7
  inb_S2048x7_S2048x7_0_0 : ∀ a, (![0, 0] : Fin 2 → Nat) a + S2048x7.size a ≤ S2048x7.size a
  h_S2048x7 : 0 < S2048x7.numel
  shapeCasts_S2048x7_S2048x7 : S2048x7.ShapeCasts S2048x7
  reduces_S2048x7_S2048 : S2048x7.Reduces [1] S2048
  shapeCasts_S2048_S2048x1 : S2048.ShapeCasts S2048x1
  reduces_S2048x1_S1 : S2048x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  slices_S2048x7_o0_0_S2048x1 : S2048x7.Slices ![0, 0] S2048x1
  shapeCasts_S1x1_S_ : S1x1.ShapeCasts S_
  gather_S32x7x400x400_S32x64x3_S32x64x7_2_023_n_n_023_2_1711_wf : GatherDims.WF S32x7x400x400 S32x64x3 S32x64x7 [2] [0, 2, 3] [] [0, 2, 3] [] 2 ![1, 7, 1, 1]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x7.size a ≤ S2048x7.size a
  hwx0_0 : ∀ i : grid0.Coords, EltTy.bits .f32 = 32 ∨ (Rect.block (s := S2048x7) S2048x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x7.size a ≤ S2048x7.size a
  hwx0_1 : ∀ i : grid0.Coords, EltTy.bits .f32 = 32 ∨ (Rect.block (s := S2048x7) S2048x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x7.size a ≤ S2048x7.size a
  hwx0_2 : ∀ i : grid0.Coords, EltTy.bits .f32 = 32 ∨ (Rect.block (s := S2048x7) S2048x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def gather_S32x7x400x400_S32x64x3_S32x64x7_2_023_n_n_023_2_1711 : GatherDims S32x7x400x400 S32x64x3 S32x64x7 where
  offsetDims := [2]
  collapsedSliceDims := [0, 2, 3]
  operandBatchingDims := []
  startIndicesBatchingDims := []
  startIndexMap := [0, 2, 3]
  indexVectorDim := 2
  sliceSizes := ![1, 7, 1, 1]
  wf := gather_S32x7x400x400_S32x64x3_S32x64x7_2_023_n_n_023_2_1711_wf

abbrev win0_0 : Pipeline.Window sig grid0 :=
  Pipeline.Window.ofSpec (Memref.whole main_v58) S2048x7.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v59) S2048x7.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v60) S2048x7.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61_0) S1x1.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v61_1) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x7x400x400 : Shape := ⟨4, ![32, 7, 400, 400]⟩
abbrev S32x64x7 : Shape := ⟨3, ![32, 64, 7]⟩
abbrev S32x64x1 : Shape := ⟨3, ![32, 64, 1]⟩
abbrev S32x64 : Shape := ⟨2, ![32, 64]⟩
abbrev S_ : Shape := ⟨0, ![]⟩
abbrev S32 : Shape := ⟨1, ![32]⟩
abbrev S32x1 : Shape := ⟨2, ![32, 1]⟩
abbrev S7 : Shape := ⟨1, ![7]⟩
abbrev S1x1x7 : Shape := ⟨3, ![1, 1, 7]⟩
abbrev S32x64x7x1 : Shape := ⟨4, ![32, 64, 7, 1]⟩
abbrev S32x64x7x4 : Shape := ⟨4, ![32, 64, 7, 4]⟩
abbrev S32x1x400x400 : Shape := ⟨4, ![32, 1, 400, 400]⟩
abbrev S32x64x4 : Shape := ⟨3, ![32, 64, 4]⟩

abbrev nBuf : Space → Nat
  | .hbm => 136
  | .vmem => 0
  | .smem => 0
  | _ => 0

abbrev hbmTy0_0 (i : Nat) : BufTy := match i % 128 with
  | 0 => ⟨S32x7x400x400, .f32⟩
  | 1 => ⟨S32x64x7, .f32⟩
  | 2 => ⟨S32x64x1, .f32⟩
  | 3 => ⟨S32x64, .f32⟩
  | 4 => ⟨S_, .f32⟩
  | 5 => ⟨S32x64, .f32⟩
  | 6 => ⟨S32x64, .f32⟩
  | 7 => ⟨S32x64, .f32⟩
  | 8 => ⟨S_, .i32⟩
  | 9 => ⟨S_, .i32⟩
  | 10 => ⟨S_, .f32⟩
  | 11 => ⟨S32x64, .f32⟩
  | 12 => ⟨S32x64, .f32⟩
  | 13 => ⟨S_, .f32⟩
  | 14 => ⟨S32x64, .f32⟩
  | 15 => ⟨S32x64, .f32⟩
  | 16 => ⟨S32x64, .i32⟩
  | 17 => ⟨S32x64x1, .f32⟩
  | 18 => ⟨S32x64, .f32⟩
  | 19 => ⟨S_, .f32⟩
  | 20 => ⟨S32x64, .f32⟩
  | 21 => ⟨S32x64, .f32⟩
  | 22 => ⟨S32x64, .f32⟩
  | 23 => ⟨S_, .i32⟩
  | 24 => ⟨S_, .i32⟩
  | 25 => ⟨S_, .f32⟩
  | 26 => ⟨S32x64, .f32⟩
  | 27 => ⟨S32x64, .f32⟩
  | 28 => ⟨S_, .f32⟩
  | 29 => ⟨S32x64, .f32⟩
  | 30 => ⟨S32x64, .f32⟩
  | 31 => ⟨S32x64, .i32⟩
  | 32 => ⟨S32, .i32⟩
  | 33 => ⟨S32x1, .i32⟩
  | 34 => ⟨S32x64, .i32⟩
  | 35 => ⟨S7, .i32⟩
  | 36 => ⟨S_, .f32⟩
  | 37 => ⟨S32x7x400x400, .f32⟩
  | 38 => ⟨S32x64x1, .i32⟩
  | 39 => ⟨S1x1x7, .i32⟩
  | 40 => ⟨S32x64x1, .i32⟩
  | 41 => ⟨S32x64x1, .i32⟩
  | 42 => ⟨S_, .i32⟩
  | 43 => ⟨S32x64x1, .i32⟩
  | 44 => ⟨S32x64x1, .i1⟩
  | 45 => ⟨S_, .i32⟩
  | 46 => ⟨S32x64x1, .i32⟩
  | 47 => ⟨S32x64x1, .i32⟩
  | 48 => ⟨S32x64x1, .i32⟩
  | 49 => ⟨S_, .i32⟩
  | 50 => ⟨S1x1x7, .i32⟩
  | 51 => ⟨S1x1x7, .i1⟩
  | 52 => ⟨S_, .i32⟩
  | 53 => ⟨S1x1x7, .i32⟩
  | 54 => ⟨S1x1x7, .i32⟩
  | 55 => ⟨S1x1x7, .i32⟩
  | 56 => ⟨S_, .i32⟩
  | 57 => ⟨S32x64x1, .i32⟩
  | 58 => ⟨S32x64x1, .i1⟩
  | 59 => ⟨S_, .i32⟩
  | 60 => ⟨S32x64x1, .i32⟩
  | 61 => ⟨S32x64x1, .i32⟩
  | 62 => ⟨S32x64x1, .i32⟩
  | 63 => ⟨S_, .i32⟩
  | 64 => ⟨S32x64x1, .i32⟩
  | 65 => ⟨S32x64x1, .i1⟩
  | 66 => ⟨S_, .i32⟩
  | 67 => ⟨S32x64x1, .i32⟩
  | 68 => ⟨S32x64x1, .i32⟩
  | 69 => ⟨S32x64x1, .i32⟩
  | 70 => ⟨S32x64x7, .i32⟩
  | 71 => ⟨S32x64x7, .i32⟩
  | 72 => ⟨S32x64x7, .i32⟩
  | 73 => ⟨S32x64x7, .i32⟩
  | 74 => ⟨S32x64x7x1, .i32⟩
  | 75 => ⟨S32x64x7x1, .i32⟩
  | 76 => ⟨S32x64x7x1, .i32⟩
  | 77 => ⟨S32x64x7x1, .i32⟩
  | 78 => ⟨S32x64x7x4, .i32⟩
  | 79 => ⟨S32x7x400x400, .f32⟩
  | 80 => ⟨S_, .f32⟩
  | 81 => ⟨S32x1x400x400, .f32⟩
  | 82 => ⟨S_, .i32⟩
  | 83 => ⟨S32x64, .i32⟩
  | 84 => ⟨S32x64, .i1⟩
  | 85 => ⟨S_, .i32⟩
  | 86 => ⟨S32x64, .i32⟩
  | 87 => ⟨S32x64, .i32⟩
  | 88 => ⟨S32x64, .i32⟩
  | 89 => ⟨S_, .i32⟩
  | 90 => ⟨S32x64, .i32⟩
  | 91 => ⟨S32x64, .i1⟩
  | 92 => ⟨S_, .i32⟩
  | 93 => ⟨S32x64, .i32⟩
  | 94 => ⟨S32x64, .i32⟩
  | 95 => ⟨S32x64, .i32⟩
  | 96 => ⟨S_, .i32⟩
  | 97 => ⟨S32x64, .i32⟩
  | 98 => ⟨S32x64, .i1⟩
  | 99 => ⟨S_, .i32⟩
  | 100 => ⟨S32x64, .i32⟩
  | 101 => ⟨S32x64, .i32⟩
  | 102 => ⟨S32x64, .i32⟩
  | 103 => ⟨S_, .i32⟩
  | 104 => ⟨S32x64, .i32⟩
  | 105 => ⟨S32x64, .i32⟩
  | 106 => ⟨S32x64x1, .i32⟩
  | 107 => ⟨S32x64x1, .i32⟩
  | 108 => ⟨S32x64x1, .i32⟩
  | 109 => ⟨S32x64x1, .i32⟩
  | 110 => ⟨S32x64x4, .i32⟩
  | 111 => ⟨S_, .f32⟩
  | 112 => ⟨S32x64, .f32⟩
  | 113 => ⟨S32x1x400x400, .f32⟩
  | 114 => ⟨S32x7x400x400, .f32⟩
  | 115 => ⟨S32x7x400x400, .f32⟩
  | 116 => ⟨S_, .f32⟩
  | 117 => ⟨S32x7x400x400, .f32⟩
  | 118 => ⟨S32x7x400x400, .i1⟩
  | 119 => ⟨S_, .f32⟩
  | 120 => ⟨S32x7x400x400, .f32⟩
  | 121 => ⟨S32x7x400x400, .f32⟩
  | 122 => ⟨S32x7x400x400, .f32⟩
  | 123 => ⟨S_, .f32⟩
  | 124 => ⟨S32x7x400x400, .f32⟩
  | 125 => ⟨S32x7x400x400, .f32⟩
  | 126 => ⟨S32x7x400x400, .f32⟩
  | 127 => ⟨S_, .f32⟩
  | _ => ⟨S32x7x400x400, .f32⟩

abbrev hbmTy0_1 (i : Nat) : BufTy := match i % 128 with
  | 0 => ⟨S_, .f32⟩
  | 1 => ⟨S32x7x400x400, .f32⟩
  | 2 => ⟨S32x7x400x400, .f32⟩
  | 3 => ⟨S_, .f32⟩
  | 4 => ⟨S_, .f32⟩
  | 5 => ⟨S_, .f32⟩
  | 6 => ⟨S_, .f32⟩
  | 7 => ⟨S_, .f32⟩
  | _ => ⟨S32x7x400x400, .f32⟩

abbrev hbmTy (i : Nat) : BufTy := match i / 128 with
  | 0 => hbmTy0_0 i
  | 1 => hbmTy0_1 i
  | _ => ⟨S32x7x400x400, .f32⟩

abbrev bufTy : (tb : Table) → Fin (tcTables nBuf tb) → BufTy
  | .hbm, ⟨i, _⟩ => hbmTy i
  | _, _ => ⟨S32x7x400x400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_2 : Ref sig .tc := ⟨.hbm, 23, rfl⟩
abbrev main_c_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_c_8 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_c_10 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_11 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_13 : Ref sig .tc := ⟨.hbm, 80, rfl⟩
abbrev main_v53 : Ref sig .tc := ⟨.hbm, 81, rfl⟩
abbrev main_c_14 : Ref sig .tc := ⟨.hbm, 82, rfl⟩
abbrev main_v54 : Ref sig .tc := ⟨.hbm, 83, rfl⟩
abbrev main_v55 : Ref sig .tc := ⟨.hbm, 84, rfl⟩
abbrev main_c_15 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_c_16 : Ref sig .tc := ⟨.hbm, 89, rfl⟩
abbrev main_v59 : Ref sig .tc := ⟨.hbm, 90, rfl⟩
abbrev main_v60 : Ref sig .tc := ⟨.hbm, 91, rfl⟩
abbrev main_c_17 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_18 : Ref sig .tc := ⟨.hbm, 96, rfl⟩
abbrev main_v64 : Ref sig .tc := ⟨.hbm, 97, rfl⟩
abbrev main_v65 : Ref sig .tc := ⟨.hbm, 98, rfl⟩
abbrev main_c_19 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_20 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_21 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_cst_22 : Ref sig .tc := ⟨.hbm, 116, rfl⟩
abbrev main_v80 : Ref sig .tc := ⟨.hbm, 117, rfl⟩
abbrev main_v81 : Ref sig .tc := ⟨.hbm, 118, rfl⟩
abbrev main_cst_23 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_24 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_25 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_26 : Ref sig .tc := ⟨.hbm, 131, rfl⟩
abbrev main_v91 : Ref sig .tc := ⟨.hbm, 132, rfl⟩
abbrev main_cst_27 : Ref sig .tc := ⟨.hbm, 133, rfl⟩
abbrev main_v92 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S32x64x7_S32x64x1_0_0_0 : S32x64x7.Slices ![0, 0, 0] S32x64x1
  shapeCasts_S32x64x1_S32x64 : S32x64x1.ShapeCasts S32x64
  bcast_S_S32x64 : S_.BroadcastsInDim S32x64 (![] : Fin 0 → Fin S32x64.rank)
  slices_S32x64x7_S32x64x1_0_0_1 : S32x64x7.Slices ![0, 0, 1] S32x64x1
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S_S32x7x400x400 : S_.BroadcastsInDim S32x7x400x400 (![] : Fin 0 → Fin S32x7x400x400.rank)
  bcast_S32x64_S32x64x1_0_1 : S32x64.BroadcastsInDim S32x64x1 (![0, 1] : Fin 2 → Fin S32x64x1.rank)
  bcast_S7_S1x1x7_2 : S7.BroadcastsInDim S1x1x7 (![2] : Fin 1 → Fin S1x1x7.rank)
  bcast_S_S32x64x1 : S_.BroadcastsInDim S32x64x1 (![] : Fin 0 → Fin S32x64x1.rank)
  bcast_S_S1x1x7 : S_.BroadcastsInDim S1x1x7 (![] : Fin 0 → Fin S1x1x7.rank)
  bcast_S32x64x1_S32x64x7_0_1_2 : S32x64x1.BroadcastsInDim S32x64x7 (![0, 1, 2] : Fin 3 → Fin S32x64x7.rank)
  bcast_S1x1x7_S32x64x7_0_1_2 : S1x1x7.BroadcastsInDim S32x64x7 (![0, 1, 2] : Fin 3 → Fin S32x64x7.rank)
  bcast_S32x64x7_S32x64x7x1_0_1_2 : S32x64x7.BroadcastsInDim S32x64x7x1 (![0, 1, 2] : Fin 3 → Fin S32x64x7x1.rank)
  concatenates_S32x64x7x1_S32x64x7x1_S32x64x7x1_S32x64x7x1_S32x64x7x4_d3 : Shape.Concatenates [S32x64x7x1, S32x64x7x1, S32x64x7x1, S32x64x7x1] S32x64x7x4 3
  bcast_S_S32x1x400x400 : S_.BroadcastsInDim S32x1x400x400 (![] : Fin 0 → Fin S32x1x400x400.rank)
  concatenates_S32x64x1_S32x64x1_S32x64x1_S32x64x1_S32x64x4_d2 : Shape.Concatenates [S32x64x1, S32x64x1, S32x64x1, S32x64x1] S32x64x4 2
  reducesTo_S32x1x400x400_S_d0_1_2_3 : S32x1x400x400.ReducesTo [0, 1, 2, 3] S_
  h_S_ : 0 < S_.numel
  bcast_S32x1x400x400_S32x7x400x400_0_1_2_3 : S32x1x400x400.BroadcastsInDim S32x7x400x400 (![0, 1, 2, 3] : Fin 4 → Fin S32x7x400x400.rank)
  reducesTo_S32x7x400x400_S_d0_1_2_3 : S32x7x400x400.ReducesTo [0, 1, 2, 3] S_
  scatter_S32x7x400x400_S32x64x7x4_S32x64x7_n_0123_0123_3_wf : ScatterDims.WF S32x7x400x400 S32x64x7x4 S32x64x7 [] [0, 1, 2, 3] [0, 1, 2, 3] 3
  scatter_S32x1x400x400_S32x64x4_S32x64_n_0123_0123_2_wf : ScatterDims.WF S32x1x400x400 S32x64x4 S32x64 [] [0, 1, 2, 3] [0, 1, 2, 3] 2

variable [Facts₀]

def scatter_S32x7x400x400_S32x64x7x4_S32x64x7_n_0123_0123_3 : ScatterDims S32x7x400x400 S32x64x7x4 S32x64x7 where
  updateWindowDims := []
  insertedWindowDims := [0, 1, 2, 3]
  scatterDimsToOperandDims := [0, 1, 2, 3]
  indexVectorDim := 3
  wf := scatter_S32x7x400x400_S32x64x7x4_S32x64x7_n_0123_0123_3_wf
def scatter_S32x1x400x400_S32x64x4_S32x64_n_0123_0123_2 : ScatterDims S32x1x400x400 S32x64x4 S32x64 where
  updateWindowDims := []
  insertedWindowDims := [0, 1, 2, 3]
  scatterDimsToOperandDims := [0, 1, 2, 3]
  indexVectorDim := 2
  wf := scatter_S32x1x400x400_S32x64x4_S32x64_n_0123_0123_2_wf

class Facts : Prop extends Facts₀ where

variable [Facts]
-- ==== Proof.LibCongr.lean ====
import Idealize.ShloMosaic.Lib.StableHlo.Run

/-! The congruence lemma of a host operation of any operand count (equal operand families, equal functions and equal
result references give equal operations), as the simplifier uses it on goals that hold such an operation. -/

namespace Cert.LibCongr

open Idealize.ShloMosaic

theorem nary_congr_simp_realized : True := by
  have := @StableHlo.nary.congr_simp
  trivial

end Cert.LibCongr
-- ==== Proof.FrameBits.lean ====
import proofs.«104338_j29283087024791_2_alg».proof.Proof.Gen.Kernel.Launch
import proofs.«104338_j29283087024791_2_alg».proof.Proof.Gen.Kernel.Skeleton
import proofs.«104338_j29283087024791_2_alg».proof.Proof.Gen.Kernel.Points
import proofs.«104338_j29283087024791_2_alg».proof.Proof.LibCongr
import Idealize.ShloMosaic.Lib.Pipeline.FrameBody
import Idealize.ShloMosaic.Lib.Pipeline.FrameSuffix
import Idealize.ShloMosaic.Lib.Ring
import Idealize.ShloMosaic.Lib.Tactic

/-! # The frame of `@main`: it terminates without fault and its two argument arrays end as launched

`@main` is five stretches of host operations, one pipelined region over a one-point grid, and one more stretch of
host operations. The region stages three whole `[2048, 7]` inputs and two whole `[1, 1]` outputs; its body loads the
three inputs, then loads and overwrites each output buffer. No host operation writes an argument array, and the
region writes only its two output arrays, so both argument arrays end as they began. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    five stretches of host operations before the region. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host stretches before it, the region, the host stretch after it; it reduces to the
    region continued by the later stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The stretch after the region touches the pipeline's arrays and the buffers that bypass the region only: each
    operation's buffers are unscoped TensorCore references, and with nothing prefetched every such reference is one
    or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    library's frame post, read at the two argument arrays (no window stages either, so each is at what the stretch
    after the region leaves, which is the launch contents), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The body's accesses -/

/-- The whole `[2048, 7]` block, as the body's three input loads spell it. -/
abbrev rIn : Rect S2048x7 := Rect.unit (s := S2048x7) ![0, 0] S2048x7.size inb_S2048x7_S2048x7_0_0
/-- The whole `[1, 1]` block, as the body's output loads and stores spell it. -/
abbrev rOut : Rect S1x1 := Rect.unit (s := S1x1) ![0, 0] S1x1.size inb_S1x1_S1x1_0_0

/-! ## What the body leaves in each output window's buffer -/

/-- Window 3's staging buffer after the body, from the input windows' blocks: its one store as a piece. -/
def out0_3 (x0 x1 x2 : Vec F S2048x7 .f32) : Vec F S1x1 .f32 :=
  View.canon [⟨rOut, k0_pay2 (View.ld x0 rIn) (View.ld x1 rIn) (View.ld x2 rIn)⟩]
/-- Window 4's staging buffer after the body, from window 2's block: its one store as a piece. -/
def out0_4 (x2 : Vec F S2048x7 .f32) : Vec F S1x1 .f32 :=
  View.canon [⟨rOut, k0_pay3 (View.ld x2 rIn)⟩]

/-- One store through the whole `[1, 1]` rectangle tiles the buffer (by evaluation), so it covers it. -/
theorem cover0_out (p0 : Vec F S1x1 .f32) (y : S1x1.Idx) :
    ∃ pc ∈ ([⟨rOut, p0⟩] : List (View.Piece (Elt F) S1x1 .f32)), y ∈ pc.1.set :=
  View.cover_of_tiled [⟨rOut, p0⟩] S1x1.size (by rfl) y

/-! ## The body's triple -/

set_option maxHeartbeats 1000000 in
/-- The kernel body on whole staging memrefs, the inputs' at read contents `x0`, `x1`, `x2` and the outputs' at
    anything, runs to the continuation holding the inputs' as they were and each output's at `out0_3` / `out0_4` of
    the inputs'. The load of an output buffer just before its store reads whatever it holds and the value is not
    used. -/
theorem sound_kernel (c : Dev nD) (E : Set ℕ) (i : grid0.Coords)
    (arg1 : Memref sig .tc .vmem S2048x7 .f32) (harg1 : arg1.IsWhole) (arg2 : Memref sig .tc .vmem S2048x7 .f32) (harg2 : arg2.IsWhole)
    (arg3 : Memref sig .tc .vmem S2048x7 .f32) (harg3 : arg3.IsWhole) (arg4 : Memref sig .tc .vmem S1x1 .f32) (harg4 : arg4.IsWhole)
    (arg5 : Memref sig .tc .vmem S1x1 .f32) (harg5 : arg5.IsWhole)
    (x0 x1 x2 : Vec F S2048x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x2)) -∗ K ⟨⟩))
      ⊢ wp frame (wpE (defs₀ (F := F)) Variants.none c none) E (cc0__loss_kernel i arg1 harg1 arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  iexists _; isplitr
  swap; · iexact H4
  ipureintro
  exact View.read_writes_eq_canon _ _ _ (cover0_out _)

/-! ## The pipeline's proof data -/

/-- The proof data of the one pipeline on core `c`: the arrays as the region finds them (`V`); after the body at
    point `t` each input's buffer at its block and each output's at `out0_3` / `out0_4` of the input blocks; the
    invariant the class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 2 t)
  Φ _ := Pipeline.ΦA spec0 c
  q _ := fullShare
  owed _ := 0

/-- The proof data's arrays are the region-entry contents: the definition projected, so that `V` — a fold over
    @main's long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding plain
-- definitions in a metavariable's type
set_option backward.isDefEq.respectTransparency.types false in
/-- For any values, from any memory with zero counters: every weakly fair execution of @main on the TensorCores
    terminates, and every final state has every array of the pipeline at what the library computes from the proof
    data and every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without fault and both argument arrays end as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.FrameIdeal.lean ====
import proofs.«104338_j29283087024791_2_alg».proof.Proof.Gen.KernelIdeal.Launch
import proofs.«104338_j29283087024791_2_alg».proof.Proof.Gen.KernelIdeal.Skeleton
import proofs.«104338_j29283087024791_2_alg».proof.Proof.Gen.KernelIdeal.Points
import proofs.«104338_j29283087024791_2_alg».proof.Proof.LibCongr
import Idealize.ShloMosaic.Lib.Pipeline.FrameBody
import Idealize.ShloMosaic.Lib.Pipeline.FrameSuffix
import Idealize.ShloMosaic.Lib.Ring
import Idealize.ShloMosaic.Lib.Tactic

/-! # The frame of `@main`: it terminates without fault and its two argument arrays end as launched

`@main` is five stretches of host operations, one pipelined region over a one-point grid, and one more stretch of
host operations. The region stages three whole `[2048, 7]` inputs and two whole `[1, 1]` outputs; its body loads the
three inputs, then loads and overwrites each output buffer. No host operation writes an argument array, and the
region writes only its two output arrays, so both argument arrays end as they began. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch contents after the
    five stretches of host operations before the region. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- No host operation allocates a buffer. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main around the region: the host stretches before it, the region, the host stretch after it; it reduces to the
    region continued by the later stretch. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The stretch after the region touches the pipeline's arrays and the buffers that bypass the region only: each
    operation's buffers are unscoped TensorCore references, and with nothing prefetched every such reference is one
    or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: each operation writes only its own result buffer, which is no array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s (`hA`) and whose body leaves the block in place (`hafter`). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    library's frame post, read at the two argument arrays (no window stages either, so each is at what the stretch
    after the region leaves, which is the launch contents), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c)⟩) h

/-! ## The body's accesses -/

/-- The whole `[2048, 7]` block, as the body's three input loads spell it. -/
abbrev rIn : Rect S2048x7 := Rect.unit (s := S2048x7) ![0, 0] S2048x7.size inb_S2048x7_S2048x7_0_0
/-- The whole `[1, 1]` block, as the body's output loads and stores spell it. -/
abbrev rOut : Rect S1x1 := Rect.unit (s := S1x1) ![0, 0] S1x1.size inb_S1x1_S1x1_0_0

/-! ## What the body leaves in each output window's buffer -/

/-- Window 3's staging buffer after the body, from the input windows' blocks: its one store as a piece. -/
def out0_3 (x0 x1 x2 : Vec F S2048x7 .f32) : Vec F S1x1 .f32 :=
  View.canon [⟨rOut, k0_pay2 (View.ld x0 rIn) (View.ld x1 rIn) (View.ld x2 rIn)⟩]
/-- Window 4's staging buffer after the body, from window 2's block: its one store as a piece. -/
def out0_4 (x2 : Vec F S2048x7 .f32) : Vec F S1x1 .f32 :=
  View.canon [⟨rOut, k0_pay3 (View.ld x2 rIn)⟩]

/-- One store through the whole `[1, 1]` rectangle tiles the buffer (by evaluation), so it covers it. -/
theorem cover0_out (p0 : Vec F S1x1 .f32) (y : S1x1.Idx) :
    ∃ pc ∈ ([⟨rOut, p0⟩] : List (View.Piece (Elt F) S1x1 .f32)), y ∈ pc.1.set :=
  View.cover_of_tiled [⟨rOut, p0⟩] S1x1.size (by rfl) y

/-! ## The body's triple -/

set_option maxHeartbeats 1000000 in
/-- The kernel body on whole staging memrefs, the inputs' at read contents `x0`, `x1`, `x2` and the outputs' at
    anything, runs to the continuation holding the inputs' as they were and each output's at `out0_3` / `out0_4` of
    the inputs'. The load of an output buffer just before its store reads whatever it holds and the value is not
    used. -/
theorem sound_kernel (c : Dev nD) (E : Set ℕ) (i : grid0.Coords)
    (arg1 : Memref sig .tc .vmem S2048x7 .f32) (harg1 : arg1.IsWhole) (arg2 : Memref sig .tc .vmem S2048x7 .f32) (harg2 : arg2.IsWhole)
    (arg3 : Memref sig .tc .vmem S2048x7 .f32) (harg3 : arg3.IsWhole) (arg4 : Memref sig .tc .vmem S1x1 .f32) (harg4 : arg4.IsWhole)
    (arg5 : Memref sig .tc .vmem S1x1 .f32) (harg5 : arg5.IsWhole)
    (x0 x1 x2 : Vec F S2048x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2) ∗ owns (c : Thread nD τ) arg5 fullShare (out0_4 x2)) -∗ K ⟨⟩))
      ⊢ wp frame (wpE (defs₀ (F := F)) Variants.none c none) E (cc0__loss_kernel i arg1 harg1 arg2 harg2 arg3 harg3 arg4 harg4 arg5 harg5) K := by
  simp only [cc0__loss_kernel_eq_skeleton]; unfold cc0__loss_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_out _)
  iexists _; isplitr
  swap; · iexact H4
  ipureintro
  exact View.read_writes_eq_canon _ _ _ (cover0_out _)

/-! ## The pipeline's proof data -/

/-- The proof data of the one pipeline on core `c`: the arrays as the region finds them (`V`); after the body at
    point `t` each input's buffer at its block and each output's at `out0_3` / `out0_4` of the input blocks; the
    invariant the class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
    | ⟨4, _⟩ => out0_4 (iblk m c 2 t)
  Φ _ := Pipeline.ΦA spec0 c
  q _ := fullShare
  owed _ := 0

/-- The proof data's arrays are the region-entry contents: the definition projected, so that `V` — a fold over
    @main's long host prefix — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 (iblk m c 0 t) (iblk m c 1 t) (iblk m c 2 t) := by dsimp only [dats]
theorem after0_4 (c : Dev nD) (t : Fin cfg0.N) : (dats m 0 c).after 4 t = out0_4 (iblk m c 2 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks (`before0_W`), so `sound_kernel` applies; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the library theorem's implicit arguments are found by unifying its conclusion with this one, which takes unfolding plain
-- definitions in a metavariable's type
set_option backward.isDefEq.respectTransparency.types false in
/-- For any values, from any memory with zero counters: every weakly fair execution of @main on the TensorCores
    terminates, and every final state has every array of the pipeline at what the library computes from the proof
    data and every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates without fault and both argument arrays end as launched, at any float model. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.KValue.lean ====
/-
  What the kernel's program returns, read off its run.

  The region's two [1, 1] output arrays end holding the body's two sums of the three staged [2048, 7] arrays (each
  output is one whole block, written back at the grid's single point); the host lines after the region reshape them to
  scalars, add the small constant to the count and divide. The staged arrays are the arrays the region finds, whole.
-/
import proofs.«104338_j29283087024791_2_alg».proof.Proof.FrameIdeal
import Idealize.ShloMosaic.Lib.Pipeline.Value
import Idealize.ShloMosaic.Lib.ValueIdx
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

instance : Subsingleton S1x1.Idx := ⟨fun a b => funext fun d => by
  match d with
  | ⟨0, _⟩ => exact Fin.ext (by have h1 : (a 0).val < 1 := (a 0).isLt; have h2 : (b 0).val < 1 := (b 0).isLt; show (a 0).val = (b 0).val; omega)
  | ⟨1, _⟩ => exact Fin.ext (by have h1 : (a 1).val < 1 := (a 1).isLt; have h2 : (b 1).val < 1 := (b 1).isLt; show (a 1).val = (b 1).val; omega)⟩

/-- The loss output array after the run: the body's loss sum of the three staged blocks, at its one element. -/
theorem arr3 (c : Dev nD) :
    (dats m 0 c).arrAt 3 cfg0.N = fun _ => k0_pay2 (F := Ideal) (iblk m c 0 t0_0) (iblk m c 1 t0_0) (iblk m c 2 t0_0) (ix2 (0 : Fin 1) (0 : Fin 1)) := by
  refine (dats m 0 c).arrAt_eq_of_cover 3 _ (fun t _ => ?_) (fun i => ⟨t0_0, flush0_3 t0_0, ?_⟩)
  · show (cfg0.win 3).cut (grid0.coords t) ((dats m 0 c).after 3 t) = _
    rw [after0_3]
    unfold out0_3
    rw [View.canon_unit_zero hz]
    simp only [View.ld_unit_zero (S := S2048x7) hz]
    obtain rfl : t = t0_0 := fin_N0 t
    funext j
    exact congrArg (k0_pay2 (F := Ideal) (iblk m c 0 t0_0) (iblk m c 1 t0_0) (iblk m c 2 t0_0))
      (Subsingleton.elim (α := S1x1.Idx) j (ix2 (0 : Fin 1) (0 : Fin 1)))
  · show i ∈ ((View.whole main_v61_0).slice (win0_3.rect t0_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- The count output array after the run: the body's count sum of the staged keep block, at its one element. -/
theorem arr4 (c : Dev nD) :
    (dats m 0 c).arrAt 4 cfg0.N = fun _ => k0_pay3 (F := Ideal) (iblk m c 2 t0_0) (ix2 (0 : Fin 1) (0 : Fin 1)) := by
  refine (dats m 0 c).arrAt_eq_of_cover 4 _ (fun t _ => ?_) (fun i => ⟨t0_0, flush0_4 t0_0, ?_⟩)
  · show (cfg0.win 4).cut (grid0.coords t) ((dats m 0 c).after 4 t) = _
    rw [after0_4]
    unfold out0_4
    rw [View.canon_unit_zero hz]
    simp only [View.ld_unit_zero (S := S2048x7) hz]
    obtain rfl : t = t0_0 := fin_N0 t
    funext j
    exact congrArg (k0_pay3 (F := Ideal) (iblk m c 2 t0_0))
      (Subsingleton.elim (α := S1x1.Idx) j (ix2 (0 : Fin 1) (0 : Fin 1)))
  · show i ∈ ((View.whole main_v61_1).slice (win0_4.rect t0_0)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

/-- The body's loss sum of the staged blocks. -/
def lossOut (c : Dev nD) : EReal :=
  k0_pay2 (F := Ideal) (iblk m c 0 t0_0) (iblk m c 1 t0_0) (iblk m c 2 t0_0) (ix2 (0 : Fin 1) (0 : Fin 1))
/-- The body's count sum of the staged keep block. -/
def cntOut (c : Dev nD) : EReal := k0_pay3 (F := Ideal) (iblk m c 2 t0_0) (ix2 (0 : Fin 1) (0 : Fin 1))

/-- The host lines after the region: the loss sum divided by the count plus the small constant. -/
theorem tail65 (c : Dev nD) :
    Pipeline.afterTail₀ cfgs (dats m) 0 (V0 m) [hostOps1] c main_v65
      = Host.divf (F := Ideal) (fun _ : S_.Idx => lossOut m c)
          (addf (F := Ideal) (fun _ : S_.Idx => cntOut m c) (constant (F := Ideal) S_ .f32 0x358637BD#32)) := by
  unfold Pipeline.afterTail₀
  show StableHlo.after hostOps1 _ (Proc.devRef .tc main_v65) = _
  after_results
  rw [Pipeline.withArrays_arr spec0 launch0.win.arr_inj c _ _ 3, Pipeline.withArrays_arr spec0 launch0.win.arr_inj c _ _ 4]
  show Host.divf (F := Ideal) (shapeCast S_ ((dats m 0 c).arrAt 3 cfg0.N) shapeCasts_S1x1_S_)
      (addf (F := Ideal) (shapeCast S_ ((dats m 0 c).arrAt 4 cfg0.N) shapeCasts_S1x1_S_) (constant (F := Ideal) S_ .f32 0x358637BD#32)) = _
  rw [arr3, arr4]
  rfl

/-- The count as returned. -/
theorem tail62 (c : Dev nD) :
    Pipeline.afterTail₀ cfgs (dats m) 0 (V0 m) [hostOps1] c main_v62 = fun _ : S_.Idx => cntOut m c := by
  unfold Pipeline.afterTail₀
  show StableHlo.after hostOps1 _ (Proc.devRef .tc main_v62) = _
  after_results
  rw [Pipeline.withArrays_arr spec0 launch0.win.arr_inj c _ _ 4]
  show shapeCast S_ ((dats m 0 c).arrAt 4 cfg0.N) shapeCasts_S1x1_S_ = _
  rw [arr4]
  rfl

/-- The kernel's program run: both results named, the arguments unchanged. -/
theorem run : θ_run defs (onTc (τ := τ) (main (F := Ideal))) ⟨m, fun _ => 0, ρ⟩ (fun r => ∀ c : Dev nD,
      r.2.mem ((c.tc : Thread nD τ).loc main_v65) = Host.divf (F := Ideal) (fun _ : S_.Idx => lossOut m c)
          (addf (F := Ideal) (fun _ : S_.Idx => cntOut m c) (constant (F := Ideal) S_ .f32 0x358637BD#32))
      ∧ r.2.mem ((c.tc : Thread nD τ).loc main_v62) = (fun _ : S_.Idx => cntOut m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v65 (Pipeline.mem_restRefs_of main_v65 (by decide) (by decide))).trans (tail65 m c),
     ((h c).2 main_v62 (Pipeline.mem_restRefs_of main_v62 (by decide) (by decide))).trans (tail62 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The staged blocks are the arrays the region finds -/

theorem iblk0_apply (c : Dev nD) (n : Fin 2048) (k : Fin 7) :
    iblk m c 0 t0_0 (ix2 n k) = (V m c main_v58 : S2048x7.Idx → EReal) (ix2 n k) := by
  unfold iblk
  show V m c main_v58 (((cfg0.win 0).blk t0_0).view.emb (ix2 n k)) = V m c main_v58 (ix2 n k)
  refine congrArg (V m c main_v58) (funext fun a => Fin.ext ?_)
  match a with
  | ⟨0, _⟩ => show win0_0.index t0_0 (0 : Fin 2) * 2048 + 1 * n.val = n.val
              have h : win0_0.index t0_0 (0 : Fin 2) = 0 := by decide
              omega
  | ⟨1, _⟩ => show win0_0.index t0_0 (1 : Fin 2) * 7 + 1 * k.val = k.val
              have h : win0_0.index t0_0 (1 : Fin 2) = 0 := by decide
              omega

theorem iblk1_apply (c : Dev nD) (n : Fin 2048) (k : Fin 7) :
    iblk m c 1 t0_0 (ix2 n k) = (V m c main_v59 : S2048x7.Idx → EReal) (ix2 n k) := by
  unfold iblk
  show V m c main_v59 (((cfg0.win 1).blk t0_0).view.emb (ix2 n k)) = V m c main_v59 (ix2 n k)
  refine congrArg (V m c main_v59) (funext fun a => Fin.ext ?_)
  match a with
  | ⟨0, _⟩ => show win0_1.index t0_0 (0 : Fin 2) * 2048 + 1 * n.val = n.val
              have h : win0_1.index t0_0 (0 : Fin 2) = 0 := by decide
              omega
  | ⟨1, _⟩ => show win0_1.index t0_0 (1 : Fin 2) * 7 + 1 * k.val = k.val
              have h : win0_1.index t0_0 (1 : Fin 2) = 0 := by decide
              omega

theorem iblk2_apply (c : Dev nD) (n : Fin 2048) (k : Fin 7) :
    iblk m c 2 t0_0 (ix2 n k) = (V m c main_v60 : S2048x7.Idx → EReal) (ix2 n k) := by
  unfold iblk
  show V m c main_v60 (((cfg0.win 2).blk t0_0).view.emb (ix2 n k)) = V m c main_v60 (ix2 n k)
  refine congrArg (V m c main_v60) (funext fun a => Fin.ext ?_)
  match a with
  | ⟨0, _⟩ => show win0_2.index t0_0 (0 : Fin 2) * 2048 + 1 * n.val = n.val
              have h : win0_2.index t0_0 (0 : Fin 2) = 0 := by decide
              omega
  | ⟨1, _⟩ => show win0_2.index t0_0 (1 : Fin 2) * 7 + 1 * k.val = k.val
              have h : win0_2.index t0_0 (1 : Fin 2) = 0 := by decide
              omega

end Cert.KernelIdeal.HandValue

end
-- ==== Proof.Spec.lean ====
/-
  The quantities both programs compute, stated over coordinates.

  A target (b, t) has a grid cell (cellY, cellX) in a 400 × 400 grid, read off two arrays of 32-bit words
  (a negative word wrapped once by the axis length, then clamped into the axis, as an indexed read does).
  Target (b, t) is KEPT when no later target t' > t of the same image b carries the same flat cell word
  (row word · 400 + column word). The loss is the sum, over kept targets and the seven channels, of the
  smooth-L1 penalty of the prediction at the target's cell minus the target's value; the count is the number
  of kept targets. Both are stated as the sums the programs form: an initial zero plus a sum over the 2048
  flattened targets n = b · 64 + t.
-/
import Idealize.ShloMosaic.Lib.ValueIdx
import Idealize.ShloMosaic.PureOps.Ideal

noncomputable section

namespace Cert.Spec

open Idealize.ShloMosaic Idealize.ShloMosaic.ValueIdx

/-- A word read as an index into an axis of length `n`: a negative word is wrapped once by `n`. -/
def wrap (n v : BitVec 32) : BitVec 32 := Scalar.select (IntOp.cmpi .slt v 0#32) (IntOp.addi v n) v

/-- A word read signed and clamped into `[0, hi]`. -/
def clampIx (hi : ℕ) (v : BitVec 32) : Fin (hi + 1) := ⟨min v.toInt.toNat hi, by omega⟩

/-- The row of target `(b, t)`'s cell. -/
def cellY (GY : IVec (⟨2, ![32, 64]⟩ : Shape) 32) (b : Fin 32) (t : Fin 64) : Fin 400 :=
  clampIx 399 (wrap 400#32 (GY (ix2 b t)))

/-- The column of target `(b, t)`'s cell. -/
def cellX (GX : IVec (⟨2, ![32, 64]⟩ : Shape) 32) (b : Fin 32) (t : Fin 64) : Fin 400 :=
  clampIx 399 (wrap 400#32 (GX (ix2 b t)))

/-- The flat cell word of target `(b, t)`: row word · 400 + column word, in 32-bit arithmetic. -/
def flat (GY GX : IVec (⟨2, ![32, 64]⟩ : Shape) 32) (b : Fin 32) (t : Fin 64) : BitVec 32 :=
  IntOp.addi (IntOp.muli (GY (ix2 b t)) 400#32) (GX (ix2 b t))

/-- A later target of the same image has the same flat cell word. -/
def dupLater (GY GX : IVec (⟨2, ![32, 64]⟩ : Shape) 32) (b : Fin 32) (t : Fin 64) : Prop :=
  ∃ t' : Fin 64, t < t' ∧ flat GY GX b t = flat GY GX b t'

open Classical in
/-- One for a kept target, zero for one a later target overwrites. -/
def keepF (GY GX : IVec (⟨2, ![32, 64]⟩ : Shape) 32) (b : Fin 32) (t : Fin 64) : EReal :=
  if dupLater GY GX b t then 0 else 1

/-- The smooth-L1 penalty of a difference `d`: `d² / 2` where `|d| < 1`, else `|d| − 1/2`. -/
def sl1 (d : EReal) : EReal :=
  Scalar.select (FloatOps.cmpf (F := Ideal) (φ := .f32) .olt (FloatOps.absf (F := Ideal) (φ := .f32) d) (Ideal.ofBits .f32 0x3F800000#32))
    (Ideal.ofBits .f32 0x3F000000#32 * d * d)
    (FloatOps.absf (F := Ideal) (φ := .f32) d - Ideal.ofBits .f32 0x3F000000#32)

/-- Image of flattened target `n`. -/
def imgOf (n : Fin 2048) : Fin 32 := ⟨n.val / 64, by have := n.isLt; omega⟩
/-- Position of flattened target `n` in its image. -/
def posOf (n : Fin 2048) : Fin 64 := ⟨n.val % 64, by omega⟩

/-- The kept targets' summed penalty, as the kernel forms it: per target a sum over channels, then a sum over targets,
    each from an initial zero. -/
def lossK (P : (⟨4, ![32, 7, 400, 400]⟩ : Shape).Idx → EReal) (T : (⟨3, ![32, 64, 7]⟩ : Shape).Idx → EReal)
    (GY GX : IVec (⟨2, ![32, 64]⟩ : Shape) 32) : EReal :=
  0 + ∑ n : Fin 2048, (0 + ∑ k : Fin 7,
    sl1 (P (ix4 (imgOf n) k (cellY GY (imgOf n) (posOf n)) (cellX GX (imgOf n) (posOf n))) - T (ix3 (imgOf n) (posOf n) k))
      * keepF GY GX (imgOf n) (posOf n))

/-- The number of kept targets, as the kernel forms it. -/
def cntK (GY GX : IVec (⟨2, ![32, 64]⟩ : Shape) 32) : EReal :=
  0 + ∑ n : Fin 2048, keepF GY GX (imgOf n) (posOf n)

end Cert.Spec

end
-- ==== Proof.LibKeepdims.lean ====
/-
  Column forms of the layout operations that a row reduction with a kept axis produces, read at an index, and a
  lane sum over the second axis of a matrix as the sum over that row's entries. General lemmas over any extents.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the row `[1, a]` reads, at `(u, i)`, the column at `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals a lane sum over the second axis of an `[a, b]` matrix is, at row `r`, the sum of that row's
    entries. -/
theorem multiReduction_add_rows {a b : ℕ} (src : FVec Ideal ⟨2, ![a, b]⟩ .f32) (acc : BitVec (FTy.bits .f32))
    (h : (⟨2, ![a, b]⟩ : Shape).Reduces [1] ⟨1, ![a]⟩) (hφ : FKind.Formats .f32) (hacc : acc = FKind.add.neutral .f32 hφ)
    (r : Fin a) :
    multiReduction .add [1] ⟨1, ![a]⟩ src acc h hφ hacc (ix1 r) = ∑ d : Fin b, src (ix2 r d) := by
  refine (Ideal.multiReduction_add_single src acc h hφ hacc (ix1 r)).trans ?_
  refine Finset.sum_congr rfl fun d _ => congrArg src (funext fun ax => Fin.ext ?_)
  match ax with
  | ⟨0, _⟩ => rfl
  | ⟨1, _⟩ => rfl

end Cert.LibKeepdims

end
-- ==== Proof.LibKeepdimsCols.lean ====
/-
  Column forms of a reduction with a kept axis. A reduction over the FIRST axis of a matrix read as the sum, or the
  maximum, over that column's entries; the host's reduction over the MIDDLE axis of a rank-3 array read the same way;
  and a vector laid as one row and repeated down the rows read at an index. General lemmas over any extents.
  (The cast of an `[a]` vector to the row `[1, a]` and the repetition of one row down `[b, a]` are the library's
  `shapeCast_a_1a_apply` and `broadcastTo_1b_ab_apply`; their composition is stated here.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdimsCols

open Idealize.ShloMosaic Idealize.ShloMosaic.ValueIdx

variable {α : Type}

/-- A `[b]` vector laid as the one row `[1, b]` and repeated down `[a, b]` reads, at `(p, c)`, the vector at `c`. -/
theorem broadcastTo_shapeCast_row_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hc) hb (ix2 p c) = v (ix1 c) :=
  (broadcastTo_1b_ab_apply _ hb p c).trans (shapeCast_a_1a_apply v hc (0 : Fin 1) c)

/-- On the extended reals a lane sum over the first axis of an `[a, b]` matrix is, at column `c`, the sum of that
    column's entries. -/
theorem multiReduction_add_cols {a b : ℕ} (src : FVec Ideal ⟨2, ![a, b]⟩ .f32) (acc : BitVec (FTy.bits .f32))
    (h : (⟨2, ![a, b]⟩ : Shape).Reduces [0] ⟨1, ![b]⟩) (hφ : FKind.Formats .f32) (hacc : acc = FKind.add.neutral .f32 hφ)
    (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  match ax with
  | ⟨0, _⟩ => rfl
  | ⟨1, _⟩ => rfl

/-- On the extended reals a lane maximum over the first axis of an `[a, b]` matrix is, at column `c`, the maximum of
    the accumulator's value and that column's entries. -/
theorem multiReduction_maximumf_cols {a b : ℕ} (src : FVec Ideal ⟨2, ![a, b]⟩ .f32) (acc : BitVec (FTy.bits .f32))
    (h : (⟨2, ![a, b]⟩ : Shape).Reduces [0] ⟨1, ![b]⟩) (hφ : FKind.Formats .f32)
    (hacc : acc = FKind.maximumf.neutral .f32 hφ) (c : Fin b) :
    multiReduction .maximumf [0] ⟨1, ![b]⟩ src acc h hφ hacc (ix1 c)
      = (Finset.univ : Finset (Fin a)).fold max (Ideal.ofBits .f32 acc) (fun r => src (ix2 r c)) := by
  refine (Ideal.multiReduction_maximumf_single src acc h hφ hacc (ix1 c)).trans ?_
  refine congrArg (fun f => Finset.fold max (Ideal.ofBits .f32 acc) f (Finset.univ : Finset (Fin a))) ?_
  exact funext fun r => congrArg src (funext fun ax => Fin.ext (by
    match ax with
    | ⟨0, _⟩ => rfl
    | ⟨1, _⟩ => rfl))

/-- On the extended reals the host's reduction with a maximum body over the middle axis of an `[m, a, b]` array is, at
    `(k, c)`, the maximum of the initial value and the entries `(k, ·, c)`. -/
theorem hostReduce_maximumf_mid {m a b : ℕ} {u : Shape} (x : FVec Ideal ⟨3, ![m, a, b]⟩ .f32) (init : u.Idx → Ideal .f32)
    (h' : (⟨3, ![m, a, b]⟩ : Shape).ReducesTo [1] ⟨2, ![m, b]⟩) (h : (⟨3, ![m, a, b]⟩ : Shape).Reduces [1] ⟨2, ![m, b]⟩)
    (hu : 0 < u.numel) (k : Fin m) (c : Fin b) :
    Host.reduce FloatOps.maximumf x init h' hu (ix2 k c)
      = (Finset.univ : Finset (Fin a)).fold max (init (Shape.Idx.first hu)) (fun r => x (ix3 k r c)) := by
  refine (Host.reduce_eq_fold_single FloatOps.maximumf x init h' h hu (ix2 k c)).trans ?_
  refine congrArg (fun f => Finset.fold max (init (Shape.Idx.first hu)) f (Finset.univ : Finset (Fin a))) ?_
  exact funext fun r => congrArg x (funext fun ax => Fin.ext (by
    match ax with
    | ⟨0, _⟩ => rfl
    | ⟨1, _⟩ => rfl
    | ⟨2, _⟩ => rfl))

/-- On the extended reals the host's float sum over the middle axis of an `[m, a, b]` array is, at `(k, c)`, the
    initial value plus the sum of the entries `(k, ·, c)`. -/
theorem hostReduceAdd_mid {m a b : ℕ} (x : (⟨3, ![m, a, b]⟩ : Shape).Idx → EReal) (init : EReal)
    (h' : (⟨3, ![m, a, b]⟩ : Shape).ReducesTo [1] ⟨2, ![m, b]⟩) (h : (⟨3, ![m, a, b]⟩ : Shape).Reduces [1] ⟨2, ![m, b]⟩)
    (k : Fin m) (c : Fin b) :
    Ideal.hostReduceAdd h' x init (ix2 k c) = init + ∑ r : Fin a, x (ix3 k r c) := by
  refine (Ideal.hostReduceAdd_single h' h x init (ix2 k c)).trans ?_
  refine congrArg (init + ·) (Finset.sum_congr rfl fun r _ => congrArg x (funext fun ax => Fin.ext ?_))
  match ax with
  | ⟨0, _⟩ => rfl
  | ⟨1, _⟩ => rfl
  | ⟨2, _⟩ => rfl

/-- The f32 word of `-∞` is the bottom of the extended reals, so the maximum against it is the other operand. -/
theorem max_negInf_f32 (x : EReal) : max (Ideal.ofBits .f32 0xFF800000#32) x = x := by
  simp [Ideal.ofBits, Ideal.ieee]

end Cert.LibKeepdimsCols

end
-- ==== Proof.LibNary3.lean ====
/-
  A host operation over a LITERAL family of three operands (a concatenation of three arrays): after it the result
  buffer holds the operation's function of the three operands' contents, each read AT ITS OWN REFERENCE, so that
  what each operand held can be read in turn. General in the references and the function.
-/
import Idealize.ShloMosaic.Lib.StableHlo.Run

noncomputable section

namespace Cert.LibNary3

open Idealize.ShloMosaic Idealize.ShloMosaic.StableHlo

variable {τ : Topo} {sig : RefSig} {Val : EltTy → Type}

/-- The result of a three-operand host operation at its result buffer: its function of the operands' contents, the
    family spelt operand by operand. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.LibNary3

end
-- ==== Proof.KGather.lean ====
/-
  The gathered predictions when the region is entered, read at an index.

  The host program before the region forms, for each target (b, t), a start index of three words — the image word b,
  the row word and the column word, each wrapped once by its axis length when negative — and gathers from the
  prediction array the seven channels at that start index, each start word read signed and clamped into its axis; the
  result is flattened over the targets. Read at flattened target n and channel k it is the prediction at image n / 64,
  channel k, and the cell of target (n / 64, n % 64).

  First the gathered array is obtained as a TERM over the prediction array and the two word arrays: the list of host
  operations is cut where the row words are formed and where the three start-index columns are joined, and each stretch
  is run over an arbitrary valuation. Then the term is read at an index, operation by operation.
-/
import proofs.«104338_j29283087024791_2_alg».proof.Proof.Spec
import proofs.«104338_j29283087024791_2_alg».proof.Proof.Gen.KernelIdeal.Launch
import proofs.«104338_j29283087024791_2_alg».proof.Proof.LibNary3
import proofs.«104338_j29283087024791_2_alg».proof.Proof.LibCongr
import Idealize.ShloMosaic.Lib.Pipeline.Value
import Idealize.ShloMosaic.Lib.ValueIdx
import Idealize.ShloMosaic.Lib.IdealHost

noncomputable section

namespace Cert.KernelIdeal.HandGather

open Cert.KernelIdeal Cert.KernelIdeal.Gen Idealize.ShloMosaic Idealize.ShloMosaic.TcCoe Idealize.SL.Sem Idealize.ShloMosaic.StableHlo Idealize.ShloMosaic.ValueIdx

/-- The result of a three-operand host operation at its result buffer, stated for the simplifier (the result reference
    un-indexed). -/
theorem nary3_result' {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  Cert.LibNary3.nary3_result f hxs hy F

/-! ## The gathered predictions as a term -/

/-- The image word array: the iota over the 32 images broadcast along the targets. -/
def imgW : IVec S32x64 32 :=
  broadcastInDim S32x64 ![0, 1] bcast_S32x1_S32x64_0_1 (broadcastInDim S32x1 ![0] bcast_S32_S32x1_0 (iotaInDim S32 32 0))

/-- A word array read as indices into an axis of length `n`: negative words wrapped once by `n`. -/
def wrapV (n : BitVec 32) (v : IVec S32x64 32) : IVec S32x64 32 :=
  select (cmpi .slt v (broadcastInDim S32x64 ![] bcast_S_S32x64 (constantI S_ 32 0#32)))
    (addi v (broadcastInDim S32x64 ![] bcast_S_S32x64 (constantI S_ 32 n))) v

/-- A word array as a one-column array. -/
def col (v : IVec S32x64 32) : IVec S32x64x1 32 :=
  broadcastInDim S32x64x1 ![0, 1] bcast_S32x64_S32x64x1_0_1 v

/-- Three one-column arrays side by side: the gather's start indices. -/
def startOf (i0 i1 i2 : IVec S32x64x1 32) : IVec S32x64x3 32 :=
  concatenate S32x64x3 2 [⟨S32x64x1, i0⟩, ⟨S32x64x1, i1⟩, ⟨S32x64x1, i2⟩]
    concatenates_S32x64x1_S32x64x1_S32x64x1_S32x64x3_d2

/-- The gather at given start-index columns, flattened over the targets. -/
def gatherOf (x0 : S32x7x400x400.Idx → EReal) (i0 i1 i2 : IVec S32x64x1 32) : S2048x7.Idx → EReal :=
  shapeCast S2048x7 (Host.gather gather_S32x7x400x400_S32x64x3_S32x64x7_2_023_n_n_023_2_1711 x0 (startOf i0 i1 i2))
    shapeCasts_S32x64x7_S2048x7

/-- The gathered predictions as a function of the prediction array and the two cell word arrays. -/
def fgather (x0 : S32x7x400x400.Idx → EReal) (gy gx : IVec S32x64 32) : S2048x7.Idx → EReal :=
  gatherOf x0 (col (wrapV 32#32 imgW)) (col (wrapV 400#32 gy)) (col (wrapV 400#32 gx))

/-! ## The host program in three stretches: up to the row words, up to the three columns, and the rest -/

/-- The operations up to and including the one that forms the row words. -/
abbrev opsPre : List (HloOp τ sig (Elt Ideal)) :=
  hostOps0 ++ (hostOps0_1 ++ (hostOps0_2 ++ (hostOps0_3 ++ (hostOps0_4 (F := Ideal)).take 1)))
/-- The operations after it up to the three start-index columns. -/
abbrev opsMid : List (HloOp τ sig (Elt Ideal)) := ((hostOps0_4 (F := Ideal)).drop 1).take 47
/-- The operations from the joining of the columns on. -/
abbrev opsEnd : List (HloOp τ sig (Elt Ideal)) := (hostOps0_4 (F := Ideal)).drop 48

theorem ops_split :
    List.flatten [hostOps0 (F := Ideal), hostOps0_1, hostOps0_2, hostOps0_3, hostOps0_4] = opsPre ++ (opsMid ++ opsEnd) := by
  rfl

/-! ## Each stretch run over an arbitrary valuation -/

theorem end_v58 (Vp : Valuation τ sig (Elt Ideal)) :
    after opsEnd Vp (Proc.devRef .tc main_v58)
      = gatherOf (Vp (Proc.devRef .tc main_arg0)) (Vp (Proc.devRef .tc main_v50)) (Vp (Proc.devRef .tc main_v51))
          (Vp (Proc.devRef .tc main_v52)) := by
  simp only [opsEnd, hostOps0_4, List.drop_succ_cons, List.drop_zero]
  simp (disch := decide) only [after_cons, after_nil,
      nullary_result', unary_result', binary_result', ternary_result', reshape_result', nary3_result',
      nullary_result_ne', unary_result_ne', binary_result_ne', ternary_result_ne', reshape_result_ne', nary_result_ne']
  rfl

theorem end_v13 (Vp : Valuation τ sig (Elt Ideal)) :
    after opsEnd Vp (Proc.devRef .tc main_v13) = Vp (Proc.devRef .tc main_v13) := by
  simp only [opsEnd, hostOps0_4, List.drop_succ_cons, List.drop_zero]
  simp (disch := decide) only [after_cons, after_nil,
      nullary_result', unary_result', binary_result', ternary_result', reshape_result', nary3_result',
      nullary_result_ne', unary_result_ne', binary_result_ne', ternary_result_ne', reshape_result_ne', nary_result_ne']

theorem end_v6 (Vp : Valuation τ sig (Elt Ideal)) :
    after opsEnd Vp (Proc.devRef .tc main_v6) = Vp (Proc.devRef .tc main_v6) := by
  simp only [opsEnd, hostOps0_4, List.drop_succ_cons, List.drop_zero]
  simp (disch := decide) only [after_cons, after_nil,
      nullary_result', unary_result', binary_result', ternary_result', reshape_result', nary3_result',
      nullary_result_ne', unary_result_ne', binary_result_ne', ternary_result_ne', reshape_result_ne', nary_result_ne']

set_option maxHeartbeats 4000000 in
theorem mid_v50 (V1 : Valuation τ sig (Elt Ideal)) :
    after opsMid V1 (Proc.devRef .tc main_v50) = col (wrapV 32#32 imgW) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem mid_v51 (V1 : Valuation τ sig (Elt Ideal)) :
    after opsMid V1 (Proc.devRef .tc main_v51) = col (wrapV 400#32 (V1 (Proc.devRef .tc main_v13))) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem mid_v52 (V1 : Valuation τ sig (Elt Ideal)) :
    after opsMid V1 (Proc.devRef .tc main_v52) = col (wrapV 400#32 (V1 (Proc.devRef .tc main_v6))) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
theorem mid_arg0 (V1 : Valuation τ sig (Elt Ideal)) :
    after opsMid V1 (Proc.devRef .tc main_arg0) = V1 (Proc.devRef .tc main_arg0) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']

set_option maxHeartbeats 4000000 in
theorem mid_v13 (V1 : Valuation τ sig (Elt Ideal)) :
    after opsMid V1 (Proc.devRef .tc main_v13) = V1 (Proc.devRef .tc main_v13) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']

set_option maxHeartbeats 4000000 in
theorem mid_v6 (V1 : Valuation τ sig (Elt Ideal)) :
    after opsMid V1 (Proc.devRef .tc main_v6) = V1 (Proc.devRef .tc main_v6) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']

set_option maxHeartbeats 4000000 in
theorem pre_arg0 (V : Valuation τ sig (Elt Ideal)) :
    after opsPre V (Proc.devRef .tc main_arg0) = V (Proc.devRef .tc main_arg0) := by
  simp only [opsPre, hostOps0, hostOps0_1, hostOps0_2, hostOps0_3, hostOps0_4, List.take_succ_cons, List.take_zero,
    List.cons_append, List.nil_append]
  simp (disch := decide) only [after_cons, after_nil,
      nullary_result', unary_result', binary_result', ternary_result', reshape_result', nary3_result',
      nullary_result_ne', unary_result_ne', binary_result_ne', ternary_result_ne', reshape_result_ne', nary_result_ne']

/-! ## The valuation when the region is entered -/

/-- The valuation when the region is entered: the host operations before it, run from the launch contents. -/
abbrev W (m : (ℓ : Loc nD τ sig) → Buf (Elt Ideal) ℓ) (c : Dev nD) : Valuation τ sig (Elt Ideal) :=
  StableHlo.after (List.flatten [hostOps0, hostOps0_1, hostOps0_2, hostOps0_3, hostOps0_4]) (fun b => m (c, b))

theorem W_split (m : (ℓ : Loc nD τ sig) → Buf (Elt Ideal) ℓ) (c : Dev nD) :
    W m c = after opsEnd (after opsMid (after opsPre (fun b => m (c, b)))) := by
  show after (List.flatten [hostOps0, hostOps0_1, hostOps0_2, hostOps0_3, hostOps0_4]) _ = _
  rw [ops_split, StableHlo.after_append, StableHlo.after_append]

theorem W_v13 (m : (ℓ : Loc nD τ sig) → Buf (Elt Ideal) ℓ) (c : Dev nD) :
    W m c (Proc.devRef .tc main_v13) = after opsPre (fun b => m (c, b)) (Proc.devRef .tc main_v13) := by
  rw [W_split, end_v13, mid_v13]

theorem W_v6 (m : (ℓ : Loc nD τ sig) → Buf (Elt Ideal) ℓ) (c : Dev nD) :
    W m c (Proc.devRef .tc main_v6) = after opsPre (fun b => m (c, b)) (Proc.devRef .tc main_v6) := by
  rw [W_split, end_v6, mid_v6]

/-- The gathered predictions when the region is entered, as a term over the prediction array and the two word arrays. -/
theorem v58_term (m : (ℓ : Loc nD τ sig) → Buf (Elt Ideal) ℓ) (c : Dev nD) :
    W m c (Proc.devRef .tc main_v58)
      = fgather (m (c, Proc.devRef .tc main_arg0)) (W m c (Proc.devRef .tc main_v13)) (W m c (Proc.devRef .tc main_v6)) := by
  rw [W_v13, W_v6, W_split, end_v58, mid_v50, mid_v51, mid_v52, mid_arg0, pre_arg0]
  rfl

/-! ## The term read at an index -/

theorem wrapV_apply (n : BitVec 32) (v : IVec S32x64 32) (i : S32x64.Idx) : wrapV n v i = Cert.Spec.wrap n (v i) := rfl

theorem imgW_apply (b : Fin 32) (t : Fin 64) : imgW (ix2 b t) = BitVec.ofNat 32 b.val := rfl

theorem col_apply (v : IVec S32x64 32) (b : Fin 32) (t : Fin 64) : col v (ix3 b t (0 : Fin 1)) = v (ix2 b t) := by
  unfold col
  exact broadcastInDim_apply _ bcast_S32x64_S32x64x1_0_1 v (ix3 b t (0 : Fin 1)) (ix2 b t) (fun a => match a with
    | ⟨0, _⟩ => by show b.val = if (32 : Nat) = 1 then 0 else b.val; rw [if_neg (by decide)]
    | ⟨1, _⟩ => by show t.val = if (64 : Nat) = 1 then 0 else t.val; rw [if_neg (by decide)])

theorem img_clamp : ∀ b : Fin 32, Cert.Spec.clampIx 31 (Cert.Spec.wrap 32#32 (BitVec.ofNat 32 b.val)) = b := by decide

theorem startOf_apply0 (i0 i1 i2 : IVec S32x64x1 32) (b : Fin 32) (t : Fin 64) :
    startOf i0 i1 i2 (ix3 b t (0 : Fin 3)) = i0 (ix3 b t (0 : Fin 1)) := by
  unfold startOf
  exact concatenate_apply_piece (t := S32x64x3) (2 : Fin 3) [⟨S32x64x1, i0⟩, ⟨S32x64x1, i1⟩, ⟨S32x64x1, i2⟩]
    concatenates_S32x64x1_S32x64x1_S32x64x1_S32x64x3_d2 (ix3 b t (0 : Fin 3))
    0 (by show 0 < 3; omega) S32x64x1 i0 rfl rfl 0 rfl (ix3 b t (0 : Fin 1))
    (fun a ha => match a, ha with
      | ⟨0, _⟩, _ => rfl
      | ⟨1, _⟩, _ => rfl
      | ⟨2, _⟩, h => absurd rfl h)
    rfl

theorem startOf_apply1 (i0 i1 i2 : IVec S32x64x1 32) (b : Fin 32) (t : Fin 64) :
    startOf i0 i1 i2 (ix3 b t (1 : Fin 3)) = i1 (ix3 b t (0 : Fin 1)) := by
  unfold startOf
  exact concatenate_apply_piece (t := S32x64x3) (2 : Fin 3) [⟨S32x64x1, i0⟩, ⟨S32x64x1, i1⟩, ⟨S32x64x1, i2⟩]
    concatenates_S32x64x1_S32x64x1_S32x64x1_S32x64x3_d2 (ix3 b t (1 : Fin 3))
    1 (by show 1 < 3; omega) S32x64x1 i1 rfl rfl 1 rfl (ix3 b t (0 : Fin 1))
    (fun a ha => match a, ha with
      | ⟨0, _⟩, _ => rfl
      | ⟨1, _⟩, _ => rfl
      | ⟨2, _⟩, h => absurd rfl h)
    rfl

theorem startOf_apply2 (i0 i1 i2 : IVec S32x64x1 32) (b : Fin 32) (t : Fin 64) :
    startOf i0 i1 i2 (ix3 b t (2 : Fin 3)) = i2 (ix3 b t (0 : Fin 1)) := by
  unfold startOf
  exact concatenate_apply_piece (t := S32x64x3) (2 : Fin 3) [⟨S32x64x1, i0⟩, ⟨S32x64x1, i1⟩, ⟨S32x64x1, i2⟩]
    concatenates_S32x64x1_S32x64x1_S32x64x1_S32x64x3_d2 (ix3 b t (2 : Fin 3))
    2 (by show 2 < 3; omega) S32x64x1 i2 rfl rfl 2 rfl (ix3 b t (0 : Fin 1))
    (fun a ha => match a, ha with
      | ⟨0, _⟩, _ => rfl
      | ⟨1, _⟩, _ => rfl
      | ⟨2, _⟩, h => absurd rfl h)
    rfl

abbrev G := gather_S32x7x400x400_S32x64x3_S32x64x7_2_023_n_n_023_2_1711

/-- The start-indices index at which result index `(b, t, k)` reads component `c` of its start index. -/
theorem G_siIdx (b : Fin 32) (t : Fin 64) (k : Fin 7) (c : Fin 3) (hc : c.val < G.startIndexMap.length) :
    G.siIdx (ix3 b t k) ⟨c.val, hc⟩ = ix3 b t c := by
  funext a; refine Fin.ext ?_
  match a with
  | ⟨0, _⟩ => rfl
  | ⟨1, _⟩ => rfl
  | ⟨2, _⟩ => rfl

theorem gather_apply (x0 : S32x7x400x400.Idx → EReal) (idx : IVec S32x64x3 32) (b : Fin 32) (t : Fin 64) (k : Fin 7) :
    Host.gather G x0 idx (ix3 b t k)
      = x0 (ix4 (Cert.Spec.clampIx 31 (idx (ix3 b t (0 : Fin 3)))) k (Cert.Spec.clampIx 399 (idx (ix3 b t (1 : Fin 3))))
          (Cert.Spec.clampIx 399 (idx (ix3 b t (2 : Fin 3))))) := by
  unfold Host.gather
  congr 1
  funext a
  refine Fin.ext ?_
  match a with
  | ⟨0, _⟩ =>
    show G.start (ix3 b t k) idx 0 + G.batchCoord (ix3 b t k) 0 + G.offCoord (ix3 b t k) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 4) ∈ G.startIndexMap from by decide)]
    rw [show (⟨List.idxOf (0 : Fin 4) G.startIndexMap, List.idxOf_lt_length_iff.2 (show (0 : Fin 4) ∈ G.startIndexMap from by decide)⟩ : Fin G.startIndexMap.length)
        = ⟨(0 : Fin 3).val, by decide⟩ from rfl, G_siIdx]
    rfl
  | ⟨1, _⟩ =>
    show G.start (ix3 b t k) idx 1 + G.batchCoord (ix3 b t k) 1 + G.offCoord (ix3 b t k) 1 = _
    rw [GatherDims.batchCoord_eq_zero _ _ _ List.not_mem_nil]
    unfold GatherDims.start
    rw [dif_neg (show (1 : Fin 4) ∉ G.startIndexMap from by decide)]
    unfold GatherDims.offCoord
    rw [dif_pos (show (1 : Fin 4) ∈ G.sKept from by decide)]
    simp only [Nat.zero_add]
    rfl
  | ⟨2, _⟩ =>
    show G.start (ix3 b t k) idx 2 + G.batchCoord (ix3 b t k) 2 + G.offCoord (ix3 b t k) 2 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (2 : Fin 4) ∈ G.startIndexMap from by decide)]
    rw [show (⟨List.idxOf (2 : Fin 4) G.startIndexMap, List.idxOf_lt_length_iff.2 (show (2 : Fin 4) ∈ G.startIndexMap from by decide)⟩ : Fin G.startIndexMap.length)
        = ⟨(1 : Fin 3).val, by decide⟩ from rfl, G_siIdx]
    rfl
  | ⟨3, _⟩ =>
    show G.start (ix3 b t k) idx 3 + G.batchCoord (ix3 b t k) 3 + G.offCoord (ix3 b t k) 3 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (3 : Fin 4) ∈ G.startIndexMap from by decide)]
    rw [show (⟨List.idxOf (3 : Fin 4) G.startIndexMap, List.idxOf_lt_length_iff.2 (show (3 : Fin 4) ∈ G.startIndexMap from by decide)⟩ : Fin G.startIndexMap.length)
        = ⟨(2 : Fin 3).val, by decide⟩ from rfl, G_siIdx]
    rfl

/-- The gathered predictions, as a term, at flattened target `n` and channel `k`: the prediction at the target's image,
    that channel, and the target's cell. -/
theorem fgather_apply (x0 : S32x7x400x400.Idx → EReal) (gy gx : IVec S32x64 32) (n : Fin 2048) (k : Fin 7) :
    fgather x0 gy gx (ix2 n k)
      = x0 (ix4 (Cert.Spec.imgOf n) k (Cert.Spec.cellY gy (Cert.Spec.imgOf n) (Cert.Spec.posOf n))
          (Cert.Spec.cellX gx (Cert.Spec.imgOf n) (Cert.Spec.posOf n))) := by
  unfold fgather gatherOf
  refine (shapeCast_apply _ shapeCasts_S32x64x7_S2048x7 (ix2 n k) (ix3 (Cert.Spec.imgOf n) (Cert.Spec.posOf n) k) ?_).trans ?_
  · rewrite [Shape.rowMajor_val_three, Shape.rowMajor_val_two]
    have hn : n.val < 2048 := n.isLt
    have hk : k.val < 7 := k.isLt
    show ((n.val / 64) * 64 + n.val % 64) * 7 + k.val = n.val * 7 + k.val
    omega
  rw [gather_apply, startOf_apply0, startOf_apply1, startOf_apply2, col_apply, col_apply, col_apply,
    wrapV_apply, wrapV_apply, wrapV_apply, imgW_apply, img_clamp]
  rfl

/-- THE GATHERED PREDICTIONS WHEN THE REGION IS ENTERED, at flattened target `n` and channel `k`. -/
theorem v58_apply (m : (ℓ : Loc nD τ sig) → Buf (Elt Ideal) ℓ) (c : Dev nD) (n : Fin 2048) (k : Fin 7) :
    (W m c (Proc.devRef .tc main_v58) : S2048x7.Idx → EReal) (ix2 n k)
      = (m (c, Proc.devRef .tc main_arg0) : S32x7x400x400.Idx → EReal)
          (ix4 (Cert.Spec.imgOf n) k
            (Cert.Spec.cellY (W m c (Proc.devRef .tc main_v13) : IVec S32x64 32) (Cert.Spec.imgOf n) (Cert.Spec.posOf n))
            (Cert.Spec.cellX (W m c (Proc.devRef .tc main_v6) : IVec S32x64 32) (Cert.Spec.imgOf n) (Cert.Spec.posOf n))) := by
  rw [v58_term]
  exact fgather_apply _ _ _ n k

/-- The same with the valuation spelt out as the run of the host operations from the launch contents. -/
theorem v58_apply_after (m : (ℓ : Loc nD τ sig) → Buf (Elt Ideal) ℓ) (c : Dev nD) (n : Fin 2048) (k : Fin 7) :
    (StableHlo.after (List.flatten [hostOps0, hostOps0_1, hostOps0_2, hostOps0_3, hostOps0_4]) (fun b => m (c, b))
        (Proc.devRef .tc main_v58) : S2048x7.Idx → EReal) (ix2 n k)
      = (m (c, Proc.devRef .tc main_arg0) : S32x7x400x400.Idx → EReal)
          (ix4 (Cert.Spec.imgOf n) k
            (Cert.Spec.cellY (StableHlo.after (List.flatten [hostOps0, hostOps0_1, hostOps0_2, hostOps0_3, hostOps0_4])
              (fun b => m (c, b)) (Proc.devRef .tc main_v13) : IVec S32x64 32) (Cert.Spec.imgOf n) (Cert.Spec.posOf n))
            (Cert.Spec.cellX (StableHlo.after (List.flatten [hostOps0, hostOps0_1, hostOps0_2, hostOps0_3, hostOps0_4])
              (fun b => m (c, b)) (Proc.devRef .tc main_v6) : IVec S32x64 32) (Cert.Spec.imgOf n) (Cert.Spec.posOf n))) :=
  v58_apply m c n k

end Cert.KernelIdeal.HandGather

end
-- ==== Proof.KBody.lean ====
/-
  The kernel body's two pure payloads read at their one index, and two of the buffers the host program has written
  when the region is entered, read at an index.

  The loss payload is the sum over the 2048 flattened targets of the per-target sum over the seven channels of the
  smooth-L1 penalty of the difference of its first two operands, weighted by the third; the count payload is the sum
  over the targets of the third operand's first channel. Each sum starts from the zero accumulator.
-/
import proofs.«104338_j29283087024791_2_alg».proof.Proof.Spec
import proofs.«104338_j29283087024791_2_alg».proof.Proof.Gen.KernelIdeal.Launch
import proofs.«104338_j29283087024791_2_alg».proof.Proof.Gen.KernelIdeal.Skeleton
import proofs.«104338_j29283087024791_2_alg».proof.Proof.LibKeepdims
import proofs.«104338_j29283087024791_2_alg».proof.Proof.LibKeepdimsCols
import proofs.«104338_j29283087024791_2_alg».proof.Proof.KGather
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run

noncomputable section

open scoped BigOperators

namespace Cert.KernelIdeal.HandBody

open Idealize.ShloMosaic Idealize.ShloMosaic.ValueIdx Cert.KernelIdeal Cert.KernelIdeal.Gen Idealize.SL.Sem
  Idealize.ShloMosaic.StableHlo
open Cert.KernelIdeal.HandGather (opsPre opsMid opsEnd W_split W_v13 W_v6 nary3_result')

/-! ## The payloads -/

/-- The weighted penalty the loss payload sums, as a matrix over (target, channel). -/
def wpen (x0 x1 x2 : FVec Ideal S2048x7 .f32) : FVec Ideal S2048x7 .f32 :=
  mulf (select (cmpf .olt (absf (subf x0 x1)) (broadcast S2048x7 (Scalar.ofBits .f32 0x3F800000#32)))
      (mulf (mulf (broadcast S2048x7 (Scalar.ofBits .f32 0x3F000000#32)) (subf x0 x1)) (subf x0 x1))
      (subf (absf (subf x0 x1)) (broadcast S2048x7 (Scalar.ofBits .f32 0x3F000000#32)))) x2

/-- At (target, channel) it is the smooth-L1 penalty of the difference times the weight. -/
theorem wpen_apply (x0 x1 x2 : FVec Ideal S2048x7 .f32) (n : Fin 2048) (k : Fin 7) :
    wpen x0 x1 x2 (ix2 n k) = Cert.Spec.sl1 (x0 (ix2 n k) - x1 (ix2 n k)) * x2 (ix2 n k) := rfl

/-- The loss payload is the column sum of the row sums of the weighted penalty. -/
theorem pay2_eq (x0 x1 x2 : Vec Ideal S2048x7 .f32) :
    k0_pay2 (F := Ideal) x0 x1 x2
      = shapeCast S1x1 (multiReduction .add [0] S1
          (shapeCast S2048x1 (multiReduction .add [1] S2048 (wpen x0 x1 x2) 0x00000000#32 reduces_S2048x7_S2048 (.inl rfl) rfl)
            shapeCasts_S2048_S2048x1) 0x00000000#32 reduces_S2048x1_S1 (.inl rfl) rfl) shapeCasts_S1_S1x1 := by
  simp only [k0_pay2, k0_pay1, shapeCast_self]
  rfl

/-- The loss payload at its one index. -/
theorem pay2_apply (x0 x1 x2 : Vec Ideal S2048x7 .f32) :
    k0_pay2 (F := Ideal) x0 x1 x2 (ix2 (0 : Fin 1) (0 : Fin 1))
      = 0 + ∑ n : Fin 2048, (0 + ∑ k : Fin 7, Cert.Spec.sl1 (x0 (ix2 n k) - x1 (ix2 n k)) * x2 (ix2 n k)) := by
  rw [pay2_eq, Cert.LibKeepdims.shapeCast_a_a1_apply, zero_add]
  refine (Cert.LibKeepdimsCols.multiReduction_add_cols _ _ _ _ _ (0 : Fin 1)).trans ?_
  refine Finset.sum_congr rfl fun n _ => ?_
  rw [Cert.LibKeepdims.shapeCast_a_a1_apply, zero_add]
  refine (Cert.LibKeepdims.multiReduction_add_rows _ _ _ _ _ n).trans ?_
  exact Finset.sum_congr rfl fun k _ => wpen_apply x0 x1 x2 n k

/-- The count payload at its one index. -/
theorem pay3_apply (x2 : Vec Ideal S2048x7 .f32) :
    k0_pay3 (F := Ideal) x2 (ix2 (0 : Fin 1) (0 : Fin 1)) = 0 + ∑ n : Fin 2048, x2 (ix2 n (0 : Fin 7)) := by
  simp only [k0_pay3, k0_pay1, shapeCast_self]
  rw [Cert.LibKeepdims.shapeCast_a_a1_apply, zero_add]
  refine (Cert.LibKeepdimsCols.multiReduction_add_cols _ _ _ _ _ (0 : Fin 1)).trans ?_
  refine Finset.sum_congr rfl fun n _ => ?_
  exact extractStridedSlice_apply _ x2 slices_S2048x7_o0_0_S2048x1 (ix2 n (0 : Fin 1)) (ix2 n (0 : Fin 7)) (fun a => by
    match a with
    | ⟨0, _⟩ => exact (Nat.zero_add _).symm
    | ⟨1, _⟩ => exact (Nat.zero_add _).symm)

/-! ## The buffers when the region is entered -/

/-- The device's buffers when the region is entered: the host operations before it, run in order from the launch
    contents. -/
abbrev W (m : (ℓ : Loc nD τ sig) → Buf (Elt Ideal) ℓ) (c : Dev nD) : Valuation τ sig (Elt Ideal) :=
  StableHlo.after (List.flatten [hostOps0, hostOps0_1, hostOps0_2, hostOps0_3, hostOps0_4]) (fun b => m (c, b))

/-- A [32, 64, 7] array flattened over its first two axes reads, at (n, k), the array at (n / 64, n % 64, k). -/
theorem flatten_apply {α : Type} (x : S32x64x7.Idx → α) (h : S32x64x7.ShapeCasts S2048x7) (n : Fin 2048) (k : Fin 7) :
    shapeCast S2048x7 x h (ix2 n k) = x (ix3 (Cert.Spec.imgOf n) (Cert.Spec.posOf n) k) :=
  shapeCast_apply x h _ _ (by
    rw [Shape.rowMajor_val_three, Shape.rowMajor_val_two]
    show (n.val / 64 * 64 + n.val % 64) * 7 + k.val = n.val * 7 + k.val
    omega)

set_option maxHeartbeats 4000000 in
/-- The reshaped targets are the second argument, flattened: no host operation writes the argument. -/
theorem v59_term (m : (ℓ : Loc nD τ sig) → Buf (Elt Ideal) ℓ) (c : Dev nD) :
    W m c (Proc.devRef .tc main_v59)
      = shapeCast S2048x7 (m (c, Proc.devRef .tc main_arg1) : S32x64x7.Idx → EReal) shapeCasts_S32x64x7_S2048x7 := by
  simp only [W, hostOps0, hostOps0_1, hostOps0_2, hostOps0_3, hostOps0_4, List.flatten_cons, List.flatten_nil,
    List.append_nil, List.cons_append, List.nil_append]
  after_results
  rfl

/-- The reshaped targets at (n, k): the second argument at (image of n, position of n, k). -/
theorem v59_apply (m : (ℓ : Loc nD τ sig) → Buf (Elt Ideal) ℓ) (c : Dev nD) (n : Fin 2048) (k : Fin 7) :
    (W m c (Proc.devRef .tc main_v59) : S2048x7.Idx → EReal) (ix2 n k)
      = (m (c, Proc.devRef .tc main_arg1) : S32x64x7.Idx → EReal) (ix3 (Cert.Spec.imgOf n) (Cert.Spec.posOf n) k) := by
  rw [v59_term]
  exact flatten_apply _ _ n k

/-! ## The keep mask -/

/-- The flat cell words: row word times 400 plus column word. -/
def cellWord (gy gx : IVec S32x64 32) : IVec S32x64 32 :=
  addi (muli gy (broadcastInDim S32x64 ![] bcast_S_S32x64 (constantI S_ 32 400#32))) gx

/-- At (b, t, t'): target t' of image b has target t's cell word, and t' is later than t. -/
def laterSame (gy gx : IVec S32x64 32) : IVec S32x64x64 1 :=
  andi
    (cmpi .eq
      (broadcastInDim S32x64x64 ![0, 1, 2] bcast_S32x64x1_S32x64x64_0_1_2
        (broadcastInDim S32x64x1 ![0, 1] bcast_S32x64_S32x64x1_0_1 (cellWord gy gx)))
      (broadcastInDim S32x64x64 ![0, 1, 2] bcast_S32x1x64_S32x64x64_0_1_2
        (broadcastInDim S32x1x64 ![0, 2] bcast_S32x64_S32x1x64_0_2 (cellWord gy gx))))
    (broadcastInDim S32x64x64 ![0, 1, 2] bcast_S1x64x64_S32x64x64_0_1_2
      (cmpi .sgt
        (broadcastInDim S1x64x64 ![0, 1, 2] bcast_S1x1x64_S1x64x64_0_1_2
          (broadcastInDim S1x1x64 ![2] bcast_S64_S1x1x64_2 (iotaInDim S64 32 0)))
        (broadcastInDim S1x64x64 ![0, 1, 2] bcast_S1x64x1_S1x64x64_0_1_2
          (broadcastInDim S1x64x1 ![1] bcast_S64_S1x64x1_1 (iotaInDim S64 32 0)))))

/-- The keep bit of each target: no later target of its image has its cell word. -/
def keepBit (gy gx : IVec S32x64 32) : IVec S32x64 1 :=
  noti (Host.reduce IntOp.ori (laterSame gy gx) (constantI S_ 1 0#1) reducesTo_S32x64x64_S32x64_d2 h_S_)

/-- A bit per target as a float, repeated over the seven channels and flattened over the targets. -/
def maskOf (kb : IVec S32x64 1) : FVec Ideal S2048x7 .f32 :=
  shapeCast S2048x7
    (broadcastInDim S32x64x7 ![0, 1, 2] bcast_S32x64x1_S32x64x7_0_1_2
      (broadcastInDim S32x64x1 ![0, 1] bcast_S32x64_S32x64x1_0_1 (uitofp (F := Ideal) .f32 kb)))
    shapeCasts_S32x64x7_S2048x7

/-- The keep mask as the host program forms it from the two word arrays. -/
def fkeep (gy gx : IVec S32x64 32) : FVec Ideal S2048x7 .f32 := maskOf (keepBit gy gx)

set_option maxHeartbeats 4000000 in
/-- The last stretch of the host program forms the mask from the keep bits. -/
theorem end_v60 (Vp : Valuation τ sig (Elt Ideal)) :
    after opsEnd Vp (Proc.devRef .tc main_v60) = maskOf (Vp (Proc.devRef .tc main_v31)) := by
  simp only [opsEnd, hostOps0_4, List.drop_succ_cons, List.drop_zero]
  simp (disch := decide) only [after_cons, after_nil,
      nullary_result', unary_result', binary_result', ternary_result', reshape_result', nary3_result',
      nullary_result_ne', unary_result_ne', binary_result_ne', ternary_result_ne', reshape_result_ne', nary_result_ne']
  rfl

set_option maxHeartbeats 4000000 in
/-- The middle stretch forms the keep bits from the two word arrays. -/
theorem mid_v31 (V1 : Valuation τ sig (Elt Ideal)) :
    after opsMid V1 (Proc.devRef .tc main_v31) = keepBit (V1 (Proc.devRef .tc main_v13)) (V1 (Proc.devRef .tc main_v6)) := by
  simp only [opsMid, hostOps0_4, List.drop_succ_cons, List.drop_zero, List.take_succ_cons, List.take_zero]
  simp (disch := decide) only [after_cons, after_nil,
      nullary_result', unary_result', binary_result', ternary_result', reshape_result', nary3_result',
      nullary_result_ne', unary_result_ne', binary_result_ne', ternary_result_ne', reshape_result_ne', nary_result_ne']
  rfl

/-- The keep mask when the region is entered, as a term over the two word arrays. -/
theorem v60_term (m : (ℓ : Loc nD τ sig) → Buf (Elt Ideal) ℓ) (c : Dev nD) :
    W m c (Proc.devRef .tc main_v60)
      = fkeep (W m c (Proc.devRef .tc main_v13) : IVec S32x64 32) (W m c (Proc.devRef .tc main_v6) : IVec S32x64 32) := by
  show Cert.KernelIdeal.HandGather.W m c (Proc.devRef .tc main_v60)
      = fkeep (Cert.KernelIdeal.HandGather.W m c (Proc.devRef .tc main_v13)) (Cert.KernelIdeal.HandGather.W m c (Proc.devRef .tc main_v6))
  rw [W_v13, W_v6, W_split, end_v60, mid_v31]
  rfl

/-! ### The mask at an index -/

/-- A [32, 64] array given a unit last axis reads, at (b, t, u), the array at (b, t). -/
theorem bcCol_apply {α : Type} (x : S32x64.Idx → α) (b : Fin 32) (t : Fin 64) (u : Fin 1) :
    broadcastInDim S32x64x1 ![0, 1] bcast_S32x64_S32x64x1_0_1 x (ix3 b t u) = x (ix2 b t) :=
  broadcastInDim_apply _ bcast_S32x64_S32x64x1_0_1 x _ _ (fun a => by
    match a with
    | ⟨0, _⟩ => rfl
    | ⟨1, _⟩ => rfl)

/-- A [32, 64, 1] column repeated over seven channels reads, at (b, t, k), the column at (b, t, 0). -/
theorem bcChan_apply {α : Type} (x : S32x64x1.Idx → α) (b : Fin 32) (t : Fin 64) (k : Fin 7) :
    broadcastInDim S32x64x7 ![0, 1, 2] bcast_S32x64x1_S32x64x7_0_1_2 x (ix3 b t k) = x (ix3 b t (0 : Fin 1)) :=
  broadcastInDim_apply _ bcast_S32x64x1_S32x64x7_0_1_2 x _ _ (fun a => by
    match a with
    | ⟨0, _⟩ => rfl
    | ⟨1, _⟩ => rfl
    | ⟨2, _⟩ => rfl)

/-- The mask at (n, k) is the bit of target (image of n, position of n), read as a number. -/
theorem maskOf_apply (kb : IVec S32x64 1) (n : Fin 2048) (k : Fin 7) :
    maskOf kb (ix2 n k) = (((kb (ix2 (Cert.Spec.imgOf n) (Cert.Spec.posOf n))).toNat : ℝ) : EReal) := by
  unfold maskOf
  rw [flatten_apply, bcChan_apply, bcCol_apply]
  rfl

/-- The keep mask when the region is entered, at (n, k), given the keep bit of target (image of n, position of n) as the
    bit of "no later target of the image has the same cell word": one for a kept target, zero otherwise. -/
theorem v60_apply_of_keepBit (m : (ℓ : Loc nD τ sig) → Buf (Elt Ideal) ℓ) (c : Dev nD) (n : Fin 2048) (k : Fin 7)
    (hkb : keepBit (W m c (Proc.devRef .tc main_v13) : IVec S32x64 32) (W m c (Proc.devRef .tc main_v6) : IVec S32x64 32)
        (ix2 (Cert.Spec.imgOf n) (Cert.Spec.posOf n))
      = open Classical in if Cert.Spec.dupLater (W m c (Proc.devRef .tc main_v13) : IVec S32x64 32)
          (W m c (Proc.devRef .tc main_v6) : IVec S32x64 32) (Cert.Spec.imgOf n) (Cert.Spec.posOf n) then 0#1 else 1#1) :
    (W m c (Proc.devRef .tc main_v60) : S2048x7.Idx → EReal) (ix2 n k)
      = Cert.Spec.keepF (W m c (Proc.devRef .tc main_v13) : IVec S32x64 32) (W m c (Proc.devRef .tc main_v6) : IVec S32x64 32)
          (Cert.Spec.imgOf n) (Cert.Spec.posOf n) := by
  rw [v60_term]
  unfold fkeep Cert.Spec.keepF
  rw [maskOf_apply, hkb]
  split
  · simp
  · simp

end Cert.KernelIdeal.HandBody

end
-- ==== Proof.KKeep.lean ====
/-
  The keep bit of a target, read off the operations that form it.

  The host program compares every pair of targets (t, t') of an image: is t' later than t, and does it carry the same
  flat cell word? It folds these bits with `or` over t' and negates. So the keep bit of target t is one exactly when
  no later target of its image has its flat cell word.
-/
import proofs.«104338_j29283087024791_2_alg».proof.Proof.KBody
import Idealize.ShloMosaic.Lib.Pipeline.Value
import Idealize.ShloMosaic.Lib.ValueIdx
import Idealize.ShloMosaic.Lib.Affine
import Idealize.ShloMosaic.PureOps.Reduce

set_option maxRecDepth 16384

noncomputable section

namespace Cert.KernelIdeal.HandKeep

open Idealize.ShloMosaic Idealize.ShloMosaic.ValueIdx Cert.KernelIdeal Cert.KernelIdeal.Gen Idealize.SL.Sem
open Cert.KernelIdeal.HandBody (cellWord laterSame keepBit)

/-- A fold of `or` over bits from the zero bit is one exactly when some bit is one. -/
theorem fold_ori_eq_one {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, IntOp.ori_eq_one, ih]
    constructor
    · rintro (h | ⟨k, hk, hf⟩)
      · exact ⟨a, Finset.mem_insert_self _ _, h⟩
      · exact ⟨k, Finset.mem_insert_of_mem hk, hf⟩
    · rintro ⟨k, hk, hf⟩
      rcases Finset.mem_insert.1 hk with rfl | hk'
      · exact Or.inl hf
      · exact Or.inr ⟨k, hk', hf⟩

/-- The cell word array at a target is the specification's flat cell word. -/
theorem cellWord_apply (gy gx : IVec S32x64 32) (b : Fin 32) (t : Fin 64) :
    cellWord gy gx (ix2 b t) = Cert.Spec.flat gy gx b t := rfl

/-- Two iota words below 64 compare, signed, as the numbers. -/
theorem iota_sgt (t t' : Fin 64) : IntOp.cmpi .sgt (BitVec.ofNat 32 t'.val) (BitVec.ofNat 32 t.val) = 1#1 ↔ t < t' := by
  revert t t'; decide

/-- The bit at (b, t, t'): target t' is later than t and has t's flat cell word. -/
theorem laterSame_apply (gy gx : IVec S32x64 32) (b : Fin 32) (t t' : Fin 64) :
    laterSame gy gx (ix3 b t t') = 1#1 ↔ (t < t' ∧ Cert.Spec.flat gy gx b t = Cert.Spec.flat gy gx b t') := by
  unfold laterSame
  show IntOp.andi (IntOp.cmpi .eq _ _) _ = 1#1 ↔ _
  rw [IntOp.andi_eq_one, IntOp.cmpi_eq]
  rw [broadcastInDim_apply _ bcast_S32x64x1_S32x64x64_0_1_2 _ (ix3 b t t') (ix3 b t (0 : Fin 1)) (fun a => by fin_cases a <;> rfl),
    broadcastInDim_apply _ bcast_S32x64_S32x64x1_0_1 _ (ix3 b t (0 : Fin 1)) (ix2 b t) (fun a => by fin_cases a <;> rfl),
    broadcastInDim_apply _ bcast_S32x1x64_S32x64x64_0_1_2 _ (ix3 b t t') (ix3 b (0 : Fin 1) t') (fun a => by fin_cases a <;> rfl),
    broadcastInDim_apply _ bcast_S32x64_S32x1x64_0_2 _ (ix3 b (0 : Fin 1) t') (ix2 b t') (fun a => by fin_cases a <;> rfl),
    broadcastInDim_apply _ bcast_S1x64x64_S32x64x64_0_1_2 _ (ix3 b t t') (ix3 (0 : Fin 1) t t') (fun a => by fin_cases a <;> rfl)]
  show (cellWord gy gx (ix2 b t) = cellWord gy gx (ix2 b t') ∧ IntOp.cmpi .sgt _ _ = 1#1) ↔ _
  rw [broadcastInDim_apply _ bcast_S1x1x64_S1x64x64_0_1_2 _ (ix3 (0 : Fin 1) t t') (ix3 (0 : Fin 1) (0 : Fin 1) t') (fun a => by fin_cases a <;> rfl),
    broadcastInDim_apply _ bcast_S64_S1x1x64_2 _ (ix3 (0 : Fin 1) (0 : Fin 1) t') (ix1 t') (fun a => by fin_cases a <;> rfl),
    broadcastInDim_apply _ bcast_S1x64x1_S1x64x64_0_1_2 _ (ix3 (0 : Fin 1) t t') (ix3 (0 : Fin 1) t (0 : Fin 1)) (fun a => by fin_cases a <;> rfl),
    broadcastInDim_apply _ bcast_S64_S1x64x1_1 _ (ix3 (0 : Fin 1) t (0 : Fin 1)) (ix1 t) (fun a => by fin_cases a <;> rfl)]
  show (cellWord gy gx (ix2 b t) = cellWord gy gx (ix2 b t') ∧ IntOp.cmpi .sgt (BitVec.ofNat 32 t'.val) (BitVec.ofNat 32 t.val) = 1#1) ↔ _
  rw [iota_sgt, cellWord_apply, cellWord_apply]
  exact And.comm

open Classical in
/-- The keep bit of a target: one unless a later target of its image has its flat cell word. -/
theorem keepBit_apply (gy gx : IVec S32x64 32) (b : Fin 32) (t : Fin 64) :
    keepBit gy gx (ix2 b t) = if Cert.Spec.dupLater gy gx b t then 0#1 else 1#1 := by
  have hR : Host.reduce IntOp.ori (laterSame gy gx) (constantI S_ 1 0#1) reducesTo_S32x64x64_S32x64_d2 h_S_ (ix2 b t) = 1#1
      ↔ Cert.Spec.dupLater gy gx b t := by
    rw [Host.reduce_eq_fold_single (a := (2 : Fin 3)) IntOp.ori (laterSame gy gx) (constantI S_ 1 0#1) reducesTo_S32x64x64_S32x64_d2
      (by decide) h_S_ (ix2 b t)]
    refine (fold_ori_eq_one (ι := Fin 64) Finset.univ _).trans ?_
    constructor
    · rintro ⟨k, -, hk⟩
      have hl : (Shape.Reduces.lift (s := S32x64x64) (a := (2 : Fin 3)) (t := S32x64) (by decide) (ix2 b t) k) = ix3 b t k := by
        funext a; apply Fin.ext; fin_cases a <;> rfl
      have hk' : laterSame gy gx (ix3 b t k) = 1#1 := (congrArg (laterSame gy gx) hl).symm.trans hk
      rw [laterSame_apply] at hk'
      exact ⟨k, hk'.1, hk'.2⟩
    · rintro ⟨t', hlt, hf⟩
      refine ⟨t', Finset.mem_univ _, ?_⟩
      have hl : (Shape.Reduces.lift (s := S32x64x64) (a := (2 : Fin 3)) (t := S32x64) (by decide) (ix2 b t) t') = ix3 b t t' := by
        funext a; apply Fin.ext; fin_cases a <;> rfl
      exact (congrArg (laterSame gy gx) hl).trans ((laterSame_apply gy gx b t t').2 ⟨hlt, hf⟩)
  unfold keepBit
  show ~~~(Host.reduce IntOp.ori (laterSame gy gx) (constantI S_ 1 0#1) reducesTo_S32x64x64_S32x64_d2 h_S_ (ix2 b t)) = _
  by_cases hd : Cert.Spec.dupLater gy gx b t
  · rw [if_pos hd, hR.2 hd]; decide
  · rw [if_neg hd]
    exact IntOp.not_eq_one.2 (fun h => hd (hR.1 h))

/-- The keep mask when the region is entered, read at an entry: one for a kept target, zero otherwise. -/
theorem v60_apply (m : (ℓ : Loc nD τ sig) → Buf (Elt Ideal) ℓ) (c : Dev nD) (n : Fin 2048) (k : Fin 7) :
    (Cert.KernelIdeal.HandBody.W m c (Proc.devRef .tc main_v60) : S2048x7.Idx → EReal) (ix2 n k)
      = Cert.Spec.keepF (Cert.KernelIdeal.HandBody.W m c (Proc.devRef .tc main_v13) : IVec S32x64 32)
          (Cert.KernelIdeal.HandBody.W m c (Proc.devRef .tc main_v6) : IVec S32x64 32) (Cert.Spec.imgOf n) (Cert.Spec.posOf n) :=
  Cert.KernelIdeal.HandBody.v60_apply_of_keepBit m c n k (keepBit_apply _ _ _ _)

end Cert.KernelIdeal.HandKeep

end
-- ==== Proof.KWords.lean ====
/-
  The two word arrays the kernel's program computes from the targets are the ones the reference computes: both
  programs apply the same operations (scale by 5, floor, clamp between 0 and 399, truncate) to the same slices of the
  targets.
-/
import proofs.«104338_j29283087024791_2_alg».proof.Proof.KGather
import proofs.«104338_j29283087024791_2_alg».proof.Proof.Gen.ReferenceIdeal.Read

set_option maxRecDepth 16384

noncomputable section

namespace Cert.KernelIdeal.HandWords

open Cert.KernelIdeal Cert.KernelIdeal.Gen Cert.KernelIdeal.HandGather Idealize.ShloMosaic Idealize.ShloMosaic.TcCoe Idealize.SL.Sem
  Idealize.ShloMosaic.StableHlo Idealize.ShloMosaic.ValueIdx

theorem words13 (m : (ℓ : Loc nD τ sig) → Buf (Elt Ideal) ℓ) (c : Dev nD) :
    (W m c (Proc.devRef .tc main_v13) : IVec S32x64 32)
      = Cert.ReferenceIdeal.Read.val_main_v13 (F := Ideal) (m (c, Proc.devRef .tc main_arg1)) := by
  rw [W_v13]
  simp only [opsPre, hostOps0, hostOps0_1, hostOps0_2, hostOps0_3, hostOps0_4, List.take_succ_cons, List.take_zero,
    List.cons_append, List.nil_append, List.append_nil]
  after_results_simp
  rfl

theorem words6 (m : (ℓ : Loc nD τ sig) → Buf (Elt Ideal) ℓ) (c : Dev nD) :
    (W m c (Proc.devRef .tc main_v6) : IVec S32x64 32)
      = Cert.ReferenceIdeal.Read.val_main_v6 (F := Ideal) (m (c, Proc.devRef .tc main_arg1)) := by
  rw [W_v6]
  simp only [opsPre, hostOps0, hostOps0_1, hostOps0_2, hostOps0_3, hostOps0_4, List.take_succ_cons, List.take_zero,
    List.cons_append, List.nil_append, List.append_nil]
  after_results_simp
  rfl

end Cert.KernelIdeal.HandWords

end
-- ==== Proof.KFinal.lean ====
/-
  The kernel's two results in terms of the targets' cells.

  The body's loss sum runs over the three arrays the region finds: the predictions gathered at each target's cell,
  the targets flattened, and the keep mask. Read entry by entry these are the specification's summands, over the
  word arrays the kernel's program computes — which are the reference's word arrays.
-/
import proofs.«104338_j29283087024791_2_alg».proof.Proof.KValue
import proofs.«104338_j29283087024791_2_alg».proof.Proof.KBody
import proofs.«104338_j29283087024791_2_alg».proof.Proof.KKeep
import proofs.«104338_j29283087024791_2_alg».proof.Proof.KGather
import proofs.«104338_j29283087024791_2_alg».proof.Proof.KWords

set_option maxRecDepth 16384

noncomputable section

namespace Cert.KernelIdeal.HandFinal

open Cert.KernelIdeal Cert.KernelIdeal.Gen Cert.KernelIdeal.Hand Cert.KernelIdeal.HandValue
open Idealize.ShloMosaic Idealize.ShloMosaic.TcCoe Idealize.ShloMosaic.ValueIdx Idealize.SL.Sem

variable (m : (ℓ : Loc nD τ sig) → Buf (Elt Ideal) ℓ)

/-- The predictions as launched. -/
abbrev argP (c : Dev nD) : S32x7x400x400.Idx → EReal := m (c, Proc.devRef .tc main_arg0)
/-- The targets as launched. -/
abbrev argT (c : Dev nD) : S32x64x7.Idx → EReal := m (c, Proc.devRef .tc main_arg1)
/-- The reference's row words of the launched targets. -/
abbrev wordY (c : Dev nD) : IVec S32x64 32 := Cert.ReferenceIdeal.Read.val_main_v13 (F := Ideal) (m (c, Proc.devRef .tc main_arg1))
/-- The reference's column words. -/
abbrev wordX (c : Dev nD) : IVec S32x64 32 := Cert.ReferenceIdeal.Read.val_main_v6 (F := Ideal) (m (c, Proc.devRef .tc main_arg1))
/-- The three staged blocks. -/
abbrev blk0 (c : Dev nD) : S2048x7.Idx → EReal := iblk m c 0 t0_0
abbrev blk1 (c : Dev nD) : S2048x7.Idx → EReal := iblk m c 1 t0_0
abbrev blk2 (c : Dev nD) : S2048x7.Idx → EReal := iblk m c 2 t0_0

theorem wY (c : Dev nD) : (V m c main_v13 : IVec S32x64 32) = wordY m c := Cert.KernelIdeal.HandWords.words13 m c
theorem wX (c : Dev nD) : (V m c main_v6 : IVec S32x64 32) = wordX m c := Cert.KernelIdeal.HandWords.words6 m c

theorem blk0_apply (c : Dev nD) (n : Fin 2048) (k : Fin 7) :
    blk0 m c (ix2 n k) = argP m c (ix4 (Cert.Spec.imgOf n) k (Cert.Spec.cellY (wordY m c) (Cert.Spec.imgOf n) (Cert.Spec.posOf n))
      (Cert.Spec.cellX (wordX m c) (Cert.Spec.imgOf n) (Cert.Spec.posOf n))) := by
  have h := Cert.KernelIdeal.HandGather.v58_apply m c n k
  have h' : (V m c main_v58 : S2048x7.Idx → EReal) (ix2 n k)
      = argP m c (ix4 (Cert.Spec.imgOf n) k (Cert.Spec.cellY (V m c main_v13 : IVec S32x64 32) (Cert.Spec.imgOf n) (Cert.Spec.posOf n))
        (Cert.Spec.cellX (V m c main_v6 : IVec S32x64 32) (Cert.Spec.imgOf n) (Cert.Spec.posOf n))) := h
  rw [wY, wX] at h'
  exact (iblk0_apply m c n k).trans h'

theorem blk1_apply (c : Dev nD) (n : Fin 2048) (k : Fin 7) :
    blk1 m c (ix2 n k) = argT m c (ix3 (Cert.Spec.imgOf n) (Cert.Spec.posOf n) k) :=
  (iblk1_apply m c n k).trans (Cert.KernelIdeal.HandBody.v59_apply m c n k)

theorem blk2_apply (c : Dev nD) (n : Fin 2048) (k : Fin 7) :
    blk2 m c (ix2 n k) = Cert.Spec.keepF (wordY m c) (wordX m c) (Cert.Spec.imgOf n) (Cert.Spec.posOf n) := by
  have h := Cert.KernelIdeal.HandKeep.v60_apply m c n k
  have h' : (V m c main_v60 : S2048x7.Idx → EReal) (ix2 n k)
      = Cert.Spec.keepF (V m c main_v13 : IVec S32x64 32) (V m c main_v6 : IVec S32x64 32) (Cert.Spec.imgOf n) (Cert.Spec.posOf n) := h
  rw [wY, wX] at h'
  exact (iblk2_apply m c n k).trans h'

/-- The kernel's loss sum is the kept targets' summed penalty. -/
theorem lossOut_eq (c : Dev nD) : lossOut m c = Cert.Spec.lossK (argP m c) (argT m c) (wordY m c) (wordX m c) := by
  unfold lossOut Cert.Spec.lossK
  refine (Cert.KernelIdeal.HandBody.pay2_apply (blk0 m c) (blk1 m c) (blk2 m c)).trans ?_
  refine congrArg (fun z : EReal => 0 + z) (Finset.sum_congr rfl fun n _ => congrArg (fun z : EReal => 0 + z) (Finset.sum_congr rfl fun k _ => ?_))
  rw [blk0_apply, blk1_apply, blk2_apply]

/-- The kernel's count is the number of kept targets. -/
theorem cntOut_eq (c : Dev nD) : cntOut m c = Cert.Spec.cntK (wordY m c) (wordX m c) := by
  unfold cntOut Cert.Spec.cntK
  refine (Cert.KernelIdeal.HandBody.pay3_apply (blk2 m c)).trans ?_
  refine congrArg (fun z : EReal => 0 + z) (Finset.sum_congr rfl fun n _ => ?_)
  rw [blk2_apply]

end Cert.KernelIdeal.HandFinal

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.RefIdx.lean ====
/-
  The reference's two indexed assignments, index by index.

  The reference writes target (b, t)'s seven values into a zero array at (b, c, row, column) and a one into a zero
  mask at (b, 0, row, column), row and column the target's cell. Here: the four index components each assignment
  uses, read off the program's operations; that the two cell words lie in [0, 399] whatever the target holds (they
  are a float clamped between 0 and 399, then truncated); and hence the element each update lands on.
-/
import proofs.«104338_j29283087024791_2_alg».proof.Proof.Gen.ReferenceIdeal.Read
import proofs.«104338_j29283087024791_2_alg».proof.Proof.Spec
import proofs.«104338_j29283087024791_2_alg».proof.Proof.LibConcatSame

noncomputable section

namespace Cert.RefIdx

open Cert.ReferenceIdeal Cert.ReferenceIdeal.Read Idealize.ShloMosaic Idealize.ShloMosaic.ValueIdx Cert.Spec

/-- The row words of the targets' cells, as the reference computes them. -/
abbrev GY (x1 : (⟨S32x64x7, .f32⟩ : BufTy).Contents (Elt Ideal)) : IVec S32x64 32 := val_main_v13 (F := Ideal) x1
/-- The column words. -/
abbrev GX (x1 : (⟨S32x64x7, .f32⟩ : BufTy).Contents (Elt Ideal)) : IVec S32x64 32 := val_main_v6 (F := Ideal) x1

/-- The four index components of the assignment into the target map, for update (b, t, c). -/
theorem v51_apply (x1 : (⟨S32x64x7, .f32⟩ : BufTy).Contents (Elt Ideal)) (b : Fin 32) (t : Fin 64) (c : Fin 7) (k : Fin 4) :
    val_main_v51 (F := Ideal) x1 (ix4 b t c k)
      = (![wrap 32#32 (BitVec.ofNat 32 b.val), wrap 7#32 (BitVec.ofNat 32 c.val), wrap 400#32 (GY x1 (ix2 b t)),
            wrap 400#32 (GX x1 (ix2 b t))] : Fin 4 → BitVec 32) k := by
  unfold val_main_v51
  rw [Cert.LibConcatSame.concat4_apply (t := S32x64x7x4) (s₁ := S32x64x7x1) 3 _ _ _ _ _ rfl 1 rfl (ix4 b t c k) k
    (by show k.val / 1 = k.val; omega) (ix4 b t c (0 : Fin 1)) (by show 0 = k.val % 1; omega)
    (fun b' hb' => by
      match b' with
      | ⟨0, _⟩ => rfl
      | ⟨1, _⟩ => rfl
      | ⟨2, _⟩ => rfl
      | ⟨3, _⟩ => exact absurd rfl hb')]
  fin_cases k
  · show val_main_v47 (F := Ideal) (ix4 b t c (0 : Fin 1)) = _
    simp only [val_main_v47_apply, val_main_v43_apply, val_main_v27_apply, val_main_v24_apply, val_main_v26_apply,
      val_main_v19_apply, val_main_v16_apply, val_main_v15_apply, val_main_v14_apply, val_main_v23_apply, val_main_v25_apply,
      val_main_c_5_apply, val_main_c_6_apply]
    rfl
  · show val_main_v48 (F := Ideal) (ix4 b t c (0 : Fin 1)) = _
    simp only [val_main_v48_apply, val_main_v44_apply, val_main_v32_apply, val_main_v29_apply, val_main_v31_apply,
      val_main_v20_apply, val_main_v17_apply, val_main_v28_apply, val_main_v30_apply, val_main_c_7_apply, val_main_c_8_apply]
    rfl
  · show val_main_v49 (F := Ideal) x1 (ix4 b t c (0 : Fin 1)) = _
    simp only [val_main_v49_apply, val_main_v45_apply, val_main_v37_apply, val_main_v34_apply, val_main_v36_apply,
      val_main_v21_apply, val_main_v33_apply, val_main_v35_apply, val_main_c_9_apply, val_main_c_10_apply]
    rfl
  · show val_main_v50 (F := Ideal) x1 (ix4 b t c (0 : Fin 1)) = _
    simp only [val_main_v50_apply, val_main_v46_apply, val_main_v42_apply, val_main_v39_apply, val_main_v41_apply,
      val_main_v22_apply, val_main_v38_apply, val_main_v40_apply, val_main_c_11_apply, val_main_c_12_apply]
    rfl

/-- The four index components of the assignment into the mask, for update (b, t). -/
theorem v75_apply (x1 : (⟨S32x64x7, .f32⟩ : BufTy).Contents (Elt Ideal)) (b : Fin 32) (t : Fin 64) (k : Fin 4) :
    val_main_v75 (F := Ideal) x1 (ix3 b t k)
      = (![wrap 32#32 (BitVec.ofNat 32 b.val), 0#32, wrap 400#32 (GY x1 (ix2 b t)),
            wrap 400#32 (GX x1 (ix2 b t))] : Fin 4 → BitVec 32) k := by
  unfold val_main_v75
  rw [Cert.LibConcatSame.concat4_apply (t := S32x64x4) (s₁ := S32x64x1) 2 _ _ _ _ _ rfl 1 rfl (ix3 b t k) k
    (by show k.val / 1 = k.val; omega) (ix3 b t (0 : Fin 1)) (by show 0 = k.val % 1; omega)
    (fun b' hb' => by
      match b' with
      | ⟨0, _⟩ => rfl
      | ⟨1, _⟩ => rfl
      | ⟨2, _⟩ => exact absurd rfl hb')]
  fin_cases k
  · show val_main_v71 (F := Ideal) (ix3 b t (0 : Fin 1)) = _
    simp only [val_main_v71_apply, val_main_v58_apply, val_main_v55_apply, val_main_v57_apply,
      val_main_v16_apply, val_main_v15_apply, val_main_v14_apply, val_main_v54_apply, val_main_v56_apply,
      val_main_c_14_apply, val_main_c_15_apply]
    rfl
  · show val_main_v72 (F := Ideal) (ix3 b t (0 : Fin 1)) = _
    simp only [val_main_v72_apply, val_main_v70_apply, val_main_v69_apply, val_main_c_20_apply]
    rfl
  · show val_main_v73 (F := Ideal) x1 (ix3 b t (0 : Fin 1)) = _
    simp only [val_main_v73_apply, val_main_v63_apply, val_main_v60_apply, val_main_v62_apply,
      val_main_v59_apply, val_main_v61_apply, val_main_c_16_apply, val_main_c_17_apply]
    rfl
  · show val_main_v74 (F := Ideal) x1 (ix3 b t (0 : Fin 1)) = _
    simp only [val_main_v74_apply, val_main_v68_apply, val_main_v65_apply, val_main_v67_apply,
      val_main_v64_apply, val_main_v66_apply, val_main_c_18_apply, val_main_c_19_apply]
    rfl

/-! ## The cell words lie in [0, 399] -/

theorem ofInt_toInt_small (k : Int) (h0 : 0 ≤ k) (h1 : k ≤ 399) : (BitVec.ofInt 32 k).toInt = k := by
  rw [BitVec.toInt_ofInt]
  unfold Int.bmod
  norm_num
  omega

/-- A float clamped between the words 0 and 399 and truncated to an integer is a word in [0, 399], whatever the float. -/
theorem cellWord_range (y : EReal) :
    0 ≤ (FloatOps.fptosi (F := Ideal) (φ := .f32) 32 (FloatOps.minimumf (F := Ideal) (φ := .f32) (FloatOps.sitofp (F := Ideal) .f32 399#32)
          (FloatOps.maximumf (F := Ideal) (φ := .f32) (FloatOps.sitofp (F := Ideal) .f32 0#32) y))).toInt
    ∧ (FloatOps.fptosi (F := Ideal) (φ := .f32) 32 (FloatOps.minimumf (F := Ideal) (φ := .f32) (FloatOps.sitofp (F := Ideal) .f32 399#32)
          (FloatOps.maximumf (F := Ideal) (φ := .f32) (FloatOps.sitofp (F := Ideal) .f32 0#32) y))).toInt ≤ 399 := by
  show 0 ≤ (Ideal.fptosi 32 (min (((399#32 : BitVec 32).toInt : ℝ) : EReal) (max (((0#32 : BitVec 32).toInt : ℝ) : EReal) y))).toInt
    ∧ (Ideal.fptosi 32 (min (((399#32 : BitVec 32).toInt : ℝ) : EReal) (max (((0#32 : BitVec 32).toInt : ℝ) : EReal) y))).toInt ≤ 399
  have h399 : (399#32 : BitVec 32).toInt = 399 := by decide
  have h0 : (0#32 : BitVec 32).toInt = 0 := by decide
  rw [h399, h0]
  have hz0 : (((0 : Int) : ℝ) : EReal) ≤ min (((399 : Int) : ℝ) : EReal) (max (((0 : Int) : ℝ) : EReal) y) :=
    le_min (by exact_mod_cast (by norm_num : ((0 : Int) : ℝ) ≤ ((399 : Int) : ℝ))) (le_max_left _ _)
  have hz1 : min (((399 : Int) : ℝ) : EReal) (max (((0 : Int) : ℝ) : EReal) y) ≤ (((399 : Int) : ℝ) : EReal) := min_le_left _ _
  generalize min (((399 : Int) : ℝ) : EReal) (max (((0 : Int) : ℝ) : EReal) y) = z at hz0 hz1 ⊢
  lift z to ℝ using ⟨ne_top_of_le_ne_top (EReal.coe_ne_top _) hz1, ne_bot_of_le_ne_bot (EReal.coe_ne_bot _) hz0⟩
  have hr0 : (0 : ℝ) ≤ z := by exact_mod_cast hz0
  have hr1 : z ≤ 399 := by exact_mod_cast hz1
  have hk0 : 0 ≤ ⌊z⌋ := Int.floor_nonneg.2 hr0
  have hk1 : ⌊z⌋ ≤ 399 := by
    have : ((⌊z⌋ : Int) : ℝ) ≤ 399 := le_trans (Int.floor_le z) hr1
    exact_mod_cast this
  have hcl : Ideal.toIntClamped (-((2 ^ (32 - 1) : Nat) : Int)) (((2 ^ (32 - 1) : Nat) : Int) - 1) (z : EReal) = ⌊z⌋ := by
    show max _ (min _ (if 0 ≤ z then ⌊z⌋ else ⌈z⌉)) = _
    rw [if_pos hr0]
    norm_num
    omega
  unfold Ideal.fptosi
  rw [hcl, ofInt_toInt_small _ hk0 hk1]
  exact ⟨hk0, hk1⟩

theorem GY_range (x1 : (⟨S32x64x7, .f32⟩ : BufTy).Contents (Elt Ideal)) (b : Fin 32) (t : Fin 64) :
    0 ≤ (GY x1 (ix2 b t)).toInt ∧ (GY x1 (ix2 b t)).toInt ≤ 399 := by
  show 0 ≤ (val_main_v13 (F := Ideal) x1 (ix2 b t)).toInt ∧ (val_main_v13 (F := Ideal) x1 (ix2 b t)).toInt ≤ 399
  simp only [val_main_v13_apply, val_main_v12_apply, val_main_call1_v4_apply, val_main_call1_v3_apply, val_main_call1_v2_apply,
    val_main_call1_v1_apply, val_main_call1_v0_apply, val_main_c_2_apply, val_main_c_3_apply]
  exact cellWord_range _

theorem GX_range (x1 : (⟨S32x64x7, .f32⟩ : BufTy).Contents (Elt Ideal)) (b : Fin 32) (t : Fin 64) :
    0 ≤ (GX x1 (ix2 b t)).toInt ∧ (GX x1 (ix2 b t)).toInt ≤ 399 := by
  show 0 ≤ (val_main_v6 (F := Ideal) x1 (ix2 b t)).toInt ∧ (val_main_v6 (F := Ideal) x1 (ix2 b t)).toInt ≤ 399
  simp only [val_main_v6_apply, val_main_v5_apply, val_main_call0_v4_apply, val_main_call0_v3_apply, val_main_call0_v2_apply,
    val_main_call0_v1_apply, val_main_call0_v0_apply, val_main_c_apply, val_main_c_0_apply]
  exact cellWord_range _

/-- A nonnegative word is not wrapped. -/
theorem wrap_of_nonneg (n v : BitVec 32) (h : 0 ≤ v.toInt) : wrap n v = v := by
  unfold wrap IntOp.cmpi
  have hs : v.slt 0#32 = false := by
    simp only [BitVec.slt, BitVec.toInt_zero]
    exact decide_eq_false (not_lt.2 h)
  simp only [hs]
  exact if_neg (by decide)

theorem toInt_ofNat_small (k : ℕ) (hk : k < 400) : (BitVec.ofNat 32 k).toInt = k := by
  rw [← BitVec.ofInt_natCast]
  exact ofInt_toInt_small _ (Int.natCast_nonneg _) (by omega)

/-- The cell row as a number is the row word's value. -/
theorem cellY_val (x1 : (⟨S32x64x7, .f32⟩ : BufTy).Contents (Elt Ideal)) (b : Fin 32) (t : Fin 64) :
    (((cellY (GY x1) b t).val : ℕ) : Int) = (wrap 400#32 (GY x1 (ix2 b t))).toInt := by
  have h := GY_range x1 b t
  unfold cellY clampIx
  rw [wrap_of_nonneg _ _ h.1]
  show ((min (GY x1 (ix2 b t)).toInt.toNat 399 : ℕ) : Int) = _
  omega

theorem cellX_val (x1 : (⟨S32x64x7, .f32⟩ : BufTy).Contents (Elt Ideal)) (b : Fin 32) (t : Fin 64) :
    (((cellX (GX x1) b t).val : ℕ) : Int) = (wrap 400#32 (GX x1 (ix2 b t))).toInt := by
  have h := GX_range x1 b t
  unfold cellX clampIx
  rw [wrap_of_nonneg _ _ h.1]
  show ((min (GX x1 (ix2 b t)).toInt.toNat 399 : ℕ) : Int) = _
  omega

/-! ## Where each update lands -/

abbrev d52 := scatter_S32x7x400x400_S32x64x7x4_S32x64x7_n_0123_0123_3
abbrev d77 := scatter_S32x1x400x400_S32x64x4_S32x64_n_0123_0123_2

theorem start52 (idx : IVec S32x64x7x4 32) (b : Fin 32) (t : Fin 64) (c : Fin 7) (a : Fin 4) :
    d52.start (ix3 b t c) idx a = (idx (ix4 b t c a)).toInt := by
  fin_cases a <;>
  · simp [ScatterDims.start, scatter_S32x7x400x400_S32x64x7x4_S32x64x7_n_0123_0123_3]
    refine congrArg (fun k => (idx k).toInt) (funext fun a' => ?_)
    fin_cases a' <;> simp [ScatterDims.siIdx, ScatterDims.siCoord] <;> rfl

theorem window52 (j : S32x64x7.Idx) (a : Fin 4) : d52.window j a = 0 := by
  fin_cases a <;> simp [ScatterDims.window, scatter_S32x7x400x400_S32x64x7x4_S32x64x7_n_0123_0123_3, ScatterDims.sKept, Shape.kept]

theorem start77 (idx : IVec S32x64x4 32) (b : Fin 32) (t : Fin 64) (a : Fin 4) :
    d77.start (ix2 b t) idx a = (idx (ix3 b t a)).toInt := by
  fin_cases a <;>
  · simp [ScatterDims.start, scatter_S32x1x400x400_S32x64x4_S32x64_n_0123_0123_2]
    refine congrArg (fun k => (idx k).toInt) (funext fun a' => ?_)
    fin_cases a' <;> simp [ScatterDims.siIdx, ScatterDims.siCoord] <;> rfl

theorem window77 (j : S32x64.Idx) (a : Fin 4) : d77.window j a = 0 := by
  fin_cases a <;> simp [ScatterDims.window, scatter_S32x1x400x400_S32x64x4_S32x64_n_0123_0123_2, ScatterDims.sKept, Shape.kept]

/-- Update (b, t, c) of the target map lands on (b, c, row, column) of target (b, t)'s cell. -/
theorem res52 (x1 : (⟨S32x64x7, .f32⟩ : BufTy).Contents (Elt Ideal)) (b : Fin 32) (t : Fin 64) (c : Fin 7) :
    d52.resultIdx? (ix3 b t c) (val_main_v51 (F := Ideal) x1) = some (ix4 b c (cellY (GY x1) b t) (cellX (GX x1) b t)) := by
  have hs : ∀ a : Fin 4, d52.start (ix3 b t c) (val_main_v51 (F := Ideal) x1) a + (d52.window (ix3 b t c) a : Int)
      = (((ix4 b c (cellY (GY x1) b t) (cellX (GX x1) b t) : S32x7x400x400.Idx) a).val : Int) := by
    intro a
    rw [start52, window52, v51_apply]
    fin_cases a
    · show (wrap 32#32 (BitVec.ofNat 32 b.val)).toInt + ((0 : ℕ) : Int) = (b.val : Int)
      have hb : (BitVec.ofNat 32 b.val).toInt = b.val := toInt_ofNat_small _ (by have := b.isLt; omega)
      rw [wrap_of_nonneg _ _ (by rw [hb]; exact Int.natCast_nonneg _), hb]; simp
    · show (wrap 7#32 (BitVec.ofNat 32 c.val)).toInt + ((0 : ℕ) : Int) = (c.val : Int)
      have hb : (BitVec.ofNat 32 c.val).toInt = c.val := toInt_ofNat_small _ (by have := c.isLt; omega)
      rw [wrap_of_nonneg _ _ (by rw [hb]; exact Int.natCast_nonneg _), hb]; simp
    · show (wrap 400#32 (GY x1 (ix2 b t))).toInt + ((0 : ℕ) : Int) = ((cellY (GY x1) b t).val : Int)
      rw [cellY_val]; simp
    · show (wrap 400#32 (GX x1 (ix2 b t))).toInt + ((0 : ℕ) : Int) = ((cellX (GX x1) b t).val : Int)
      rw [cellX_val]; simp
  unfold ScatterDims.resultIdx?
  rw [dif_pos (fun a => by
    rw [hs a]
    exact ⟨Int.natCast_nonneg _, by exact_mod_cast ((ix4 b c (cellY (GY x1) b t) (cellX (GX x1) b t) : S32x7x400x400.Idx) a).isLt⟩)]
  refine congrArg some (funext fun a => Fin.ext ?_)
  show (d52.start (ix3 b t c) (val_main_v51 (F := Ideal) x1) a + (d52.window (ix3 b t c) a : Int)).toNat = _
  rw [hs a, Int.toNat_natCast]

/-- Update (b, t) of the mask lands on (b, 0, row, column) of target (b, t)'s cell. -/
theorem res77 (x1 : (⟨S32x64x7, .f32⟩ : BufTy).Contents (Elt Ideal)) (b : Fin 32) (t : Fin 64) :
    d77.resultIdx? (ix2 b t) (val_main_v75 (F := Ideal) x1) = some (ix4 b (0 : Fin 1) (cellY (GY x1) b t) (cellX (GX x1) b t)) := by
  have hs : ∀ a : Fin 4, d77.start (ix2 b t) (val_main_v75 (F := Ideal) x1) a + (d77.window (ix2 b t) a : Int)
      = (((ix4 b (0 : Fin 1) (cellY (GY x1) b t) (cellX (GX x1) b t) : S32x1x400x400.Idx) a).val : Int) := by
    intro a
    rw [start77, window77, v75_apply]
    fin_cases a
    · show (wrap 32#32 (BitVec.ofNat 32 b.val)).toInt + ((0 : ℕ) : Int) = (b.val : Int)
      have hb : (BitVec.ofNat 32 b.val).toInt = b.val := toInt_ofNat_small _ (by have := b.isLt; omega)
      rw [wrap_of_nonneg _ _ (by rw [hb]; exact Int.natCast_nonneg _), hb]; simp
    · show (0#32 : BitVec 32).toInt + ((0 : ℕ) : Int) = ((0 : ℕ) : Int)
      simp
    · show (wrap 400#32 (GY x1 (ix2 b t))).toInt + ((0 : ℕ) : Int) = ((cellY (GY x1) b t).val : Int)
      rw [cellY_val]; simp
    · show (wrap 400#32 (GX x1 (ix2 b t))).toInt + ((0 : ℕ) : Int) = ((cellX (GX x1) b t).val : Int)
      rw [cellX_val]; simp
  unfold ScatterDims.resultIdx?
  rw [dif_pos (fun a => by
    rw [hs a]
    exact ⟨Int.natCast_nonneg _, by exact_mod_cast ((ix4 b (0 : Fin 1) (cellY (GY x1) b t) (cellX (GX x1) b t) : S32x1x400x400.Idx) a).isLt⟩)]
  refine congrArg some (funext fun a => Fin.ext ?_)
  show (d77.start (ix2 b t) (val_main_v75 (F := Ideal) x1) a + (d77.window (ix2 b t) a : Int)).toNat = _
  rw [hs a, Int.toNat_natCast]

end Cert.RefIdx

end
-- ==== Proof.Cells.lean ====
/-
  Targets and their cells, combinatorially.

  Two arrays of 32-bit words whose values lie in [0, 399] give every target (b, t) a cell (row, column) in a
  400 × 400 grid. For such words the flat word row · 400 + column (in 32-bit arithmetic) determines the cell and is
  determined by it; among the targets of one image that share a cell exactly one is KEPT (has no later duplicate):
  the last one.
-/
import proofs.«104338_j29283087024791_2_alg».proof.Proof.Spec

noncomputable section

namespace Cert.Cells

open Idealize.ShloMosaic Idealize.ShloMosaic.ValueIdx Cert.Spec

/-- Every word of the array, read signed, lies in [0, 399]. -/
def InRange (g : IVec (⟨2, ![32, 64]⟩ : Shape) 32) : Prop :=
  ∀ (b : Fin 32) (t : Fin 64), 0 ≤ (g (ix2 b t)).toInt ∧ (g (ix2 b t)).toInt ≤ 399

/-- A nonnegative word is not wrapped. -/
theorem wrap_of_nonneg (n v : BitVec 32) (h : 0 ≤ v.toInt) : wrap n v = v := by
  unfold wrap IntOp.cmpi
  have hs : v.slt 0#32 = false := by
    simp only [BitVec.slt, BitVec.toInt_zero]
    exact decide_eq_false (not_lt.2 h)
  simp only [hs]
  exact if_neg (by decide)

/-- A word in [0, 399] read unsigned. -/
theorem toNat_of_range (v : BitVec 32) (h0 : 0 ≤ v.toInt) (h1 : v.toInt ≤ 399) : (v.toNat : Int) = v.toInt ∧ v.toNat ≤ 399 := by
  have h := BitVec.toInt_eq_toNat_cond v
  have hlt := v.isLt
  split_ifs at h <;> omega

/-- The clamped, wrapped word of an in-range word is its value. -/
theorem clamp_val (v : BitVec 32) (h0 : 0 ≤ v.toInt) (h1 : v.toInt ≤ 399) : (clampIx 399 (wrap 400#32 v)).val = v.toNat := by
  rw [wrap_of_nonneg _ _ h0]
  have := toNat_of_range v h0 h1
  show min v.toInt.toNat 399 = v.toNat
  omega

theorem cellY_eq_iff {gy : IVec (⟨2, ![32, 64]⟩ : Shape) 32} (hy : InRange gy) (b : Fin 32) (t t' : Fin 64) :
    cellY gy b t = cellY gy b t' ↔ gy (ix2 b t) = gy (ix2 b t') := by
  constructor
  · intro h
    have h' := congrArg Fin.val h
    unfold cellY at h'
    rw [clamp_val _ (hy b t).1 (hy b t).2, clamp_val _ (hy b t').1 (hy b t').2] at h'
    exact BitVec.eq_of_toNat_eq h'
  · intro h
    unfold cellY
    rw [h]

theorem cellX_eq_iff {gx : IVec (⟨2, ![32, 64]⟩ : Shape) 32} (hx : InRange gx) (b : Fin 32) (t t' : Fin 64) :
    cellX gx b t = cellX gx b t' ↔ gx (ix2 b t) = gx (ix2 b t') := by
  constructor
  · intro h
    have h' := congrArg Fin.val h
    unfold cellX at h'
    rw [clamp_val _ (hx b t).1 (hx b t).2, clamp_val _ (hx b t').1 (hx b t').2] at h'
    exact BitVec.eq_of_toNat_eq h'
  · intro h
    unfold cellX
    rw [h]

/-- Two words in [0, 399] are recovered from row · 400 + column in 32-bit arithmetic. -/
theorem flatWord_inj (a x a' x' : BitVec 32) (ha : a.toNat ≤ 399) (hx : x.toNat ≤ 399) (ha' : a'.toNat ≤ 399) (hx' : x'.toNat ≤ 399)
    (h : IntOp.addi (IntOp.muli a 400#32) x = IntOp.addi (IntOp.muli a' 400#32) x') : a = a' ∧ x = x' := by
  have e : ∀ p q : BitVec 32, p.toNat ≤ 399 → q.toNat ≤ 399 →
      (IntOp.addi (IntOp.muli p 400#32) q).toNat = p.toNat * 400 + q.toNat := by
    intro p q hp hq
    simp only [IntOp.addi, IntOp.muli, BitVec.toNat_add, BitVec.toNat_mul, BitVec.toNat_ofNat]
    have h400 : (400 : ℕ) % 2 ^ 32 = 400 := by norm_num
    rw [h400]
    omega
  have h' := congrArg BitVec.toNat h
  rw [e a x ha hx, e a' x' ha' hx'] at h'
  constructor
  · apply BitVec.eq_of_toNat_eq; omega
  · apply BitVec.eq_of_toNat_eq; omega

/-- For in-range words, equal flat cell words mean equal cells, and conversely. -/
theorem flat_eq_iff {gy gx : IVec (⟨2, ![32, 64]⟩ : Shape) 32} (hy : InRange gy) (hx : InRange gx) (b : Fin 32) (t t' : Fin 64) :
    flat gy gx b t = flat gy gx b t' ↔ (cellY gy b t = cellY gy b t' ∧ cellX gx b t = cellX gx b t') := by
  rw [cellY_eq_iff hy, cellX_eq_iff hx]
  constructor
  · intro h
    unfold flat at h
    exact flatWord_inj _ _ _ _ (toNat_of_range _ (hy b t).1 (hy b t).2).2 (toNat_of_range _ (hx b t).1 (hx b t).2).2
      (toNat_of_range _ (hy b t').1 (hy b t').2).2 (toNat_of_range _ (hx b t').1 (hx b t').2).2 h
  · rintro ⟨h1, h2⟩
    unfold flat
    rw [h1, h2]

/-- Two kept targets of one image with the same cell are the same target. -/
theorem kept_inj {gy gx : IVec (⟨2, ![32, 64]⟩ : Shape) 32} (hy : InRange gy) (hx : InRange gx) (b : Fin 32) (t t' : Fin 64)
    (hk : ¬ dupLater gy gx b t) (hk' : ¬ dupLater gy gx b t')
    (hc : cellY gy b t = cellY gy b t' ∧ cellX gx b t = cellX gx b t') : t = t' := by
  have hf := (flat_eq_iff hy hx b t t').2 hc
  rcases lt_trichotomy t t' with h | h | h
  · exact absurd ⟨t', h, hf⟩ hk
  · exact h
  · exact absurd ⟨t, h, hf.symm⟩ hk'

/-- Every target shares its cell with a kept target of the same image (the last one with that cell). -/
theorem exists_kept {gy gx : IVec (⟨2, ![32, 64]⟩ : Shape) 32} (hy : InRange gy) (hx : InRange gx) (b : Fin 32) (t : Fin 64) :
    ∃ t0 : Fin 64, ¬ dupLater gy gx b t0 ∧ cellY gy b t0 = cellY gy b t ∧ cellX gx b t0 = cellX gx b t := by
  classical
  obtain ⟨t0, ht0, hmax⟩ := Finset.exists_max_image (Finset.univ.filter fun t' : Fin 64 => flat gy gx b t' = flat gy gx b t)
    (fun t' => t') ⟨t, by simp⟩
  have hf0 : flat gy gx b t0 = flat gy gx b t := (Finset.mem_filter.1 ht0).2
  refine ⟨t0, ?_, (flat_eq_iff hy hx b t0 t).1 hf0⟩
  rintro ⟨t', hlt, hf⟩
  have := hmax t' (by simp [← hf, hf0])
  exact absurd this (not_le.2 hlt)

end Cert.Cells

end
-- ==== Proof.LibScatterSet.lean ====
/-
  A scatter whose body returns the update (an indexed assignment), read at one element of the result.

  The scatter is the left fold, over the update indices in row-major order, of the step that overwrites the element an
  update lands on. So an element no update lands on keeps the operand's value, and an element some update lands on
  holds the update that lands there LAST in row-major order: if update `j` lands on `i` and no update later than `j`
  in row-major order does, the result at `i` is update `j`'s value. General in the shapes, the dimension numbers,
  the index width and the element type.
-/
import Idealize.ShloMosaic.PureOps.ShapeOps
import Mathlib.Data.List.Sort

noncomputable section

namespace Cert.LibScatterSet

open Idealize.ShloMosaic

variable {α : Type} {s si u : Shape} {w : Nat}

/-- One update of the fold: update `n` overwrites the element it lands on, if it lands inside the operand. -/
def step (d : ScatterDims s si u) (idx : IVec si w) (upd : u.Idx → α) (r : s.Idx → α) (n : Fin u.numel) : s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- The step read at an element: the update's value if it lands there, else what was there. -/
theorem step_apply (d : ScatterDims s si u) (idx : IVec si w) (upd : u.Idx → α) (r : s.Idx → α) (n : Fin u.numel) (i : s.Idx) :
    step d idx upd r n i
      = if d.resultIdx? (u.rowMajor.symm n) idx = some i then upd (u.rowMajor.symm n) else r i := by
  unfold step
  cases d.resultIdx? (u.rowMajor.symm n) idx with
  | none => simp
  | some i0 =>
    by_cases h : i = i0
    · subst h; simp
    · have h' : ¬ (some i0 = some i) := fun e => h (Option.some.inj e).symm
      simp [h, h']

/-- Updates none of which lands on `i` leave element `i` as it was. -/
theorem foldl_miss (d : ScatterDims s si u) (idx : IVec si w) (upd : u.Idx → α) (L : List (Fin u.numel))
    (x : s.Idx → α) (i : s.Idx) (h : ∀ n ∈ L, d.resultIdx? (u.rowMajor.symm n) idx ≠ some i) :
    L.foldl (step d idx upd) x i = x i := by
  induction L generalizing x with
  | nil => rfl
  | cons a L ih =>
    rw [List.foldl_cons, ih _ (fun n hn => h n (List.mem_cons_of_mem _ hn))]
    have ha := h a List.mem_cons_self
    rw [step_apply, if_neg ha]

/-- Over an increasing list of updates, element `i` ends at the value of the last update that lands on it. -/
theorem foldl_hit (d : ScatterDims s si u) (idx : IVec si w) (upd : u.Idx → α) (L : List (Fin u.numel))
    (hL : L.Pairwise (· < ·)) (x : s.Idx → α) (i : s.Idx) (n : Fin u.numel) (hn : n ∈ L)
    (hr : d.resultIdx? (u.rowMajor.symm n) idx = some i)
    (hlast : ∀ n' ∈ L, n < n' → d.resultIdx? (u.rowMajor.symm n') idx ≠ some i) :
    L.foldl (step d idx upd) x i = upd (u.rowMajor.symm n) := by
  induction L generalizing x with
  | nil => cases hn
  | cons a L ih =>
    rw [List.foldl_cons]
    rcases List.mem_cons.1 hn with rfl | hn'
    · rw [foldl_miss d idx upd L _ i (fun n' hn' => hlast n' (List.mem_cons_of_mem _ hn') ((List.pairwise_cons.1 hL).1 n' hn'))]
      rw [step_apply, if_pos hr]
    · exact ih (List.pairwise_cons.1 hL).2 _ hn' (fun n' h' => hlast n' (List.mem_cons_of_mem _ h'))

/-- An element no update lands on keeps the operand's value. -/
theorem scatter_set_miss (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_miss d idx upd _ x i (fun n _ => h _)

/-- An element holds the update that lands on it last in row-major order. -/
theorem scatter_set_hit (d : ScatterDims s si u) (x : s.Idx → α) (idx : IVec si w) (upd : u.Idx → α) (i : s.Idx)
    (j : u.Idx) (hr : d.resultIdx? j idx = some i)
    (hlast : ∀ j' : u.Idx, u.rowMajor j < u.rowMajor j' → d.resultIdx? j' idx ≠ some i) :
    Host.scatter d (fun _ b => b) x idx upd i = upd j := by
  rw [scatter_eq_foldl]
  have h := foldl_hit d idx upd (List.finRange u.numel) (List.sortedLT_finRange _).pairwise x i (u.rowMajor j)
    (List.mem_finRange _) (by rw [Equiv.symm_apply_apply]; exact hr)
    (fun n' _ hlt => hlast (u.rowMajor.symm n') (by rw [Equiv.apply_symm_apply]; exact hlt))
  rw [Equiv.symm_apply_apply] at h
  exact h

/-- Among the updates landing on `i`, if there is one, one is last in row-major order. -/
theorem exists_last (d : ScatterDims s si u) (idx : IVec si w) (i : s.Idx) (h : ∃ j : u.Idx, d.resultIdx? j idx = some i) :
    ∃ j : u.Idx, d.resultIdx? j idx = some i
      ∧ ∀ j' : u.Idx, u.rowMajor j < u.rowMajor j' → d.resultIdx? j' idx ≠ some i := by
  classical
  obtain ⟨j, hj⟩ := h
  obtain ⟨j0, hj0, hmax⟩ := Finset.exists_max_image (Finset.univ.filter fun j : u.Idx => d.resultIdx? j idx = some i)
    (fun j => u.rowMajor j) ⟨j, by simp [hj]⟩
  refine ⟨j0, (Finset.mem_filter.1 hj0).2, fun j' hlt hj' => ?_⟩
  exact absurd (hmax j' (by simp [hj'])) (not_le.2 hlt)

/-- When every update landing on `i` carries the same value `v`, and some update lands there, the result at `i` is `v`. -/
theorem scatter_set_const (d : ScatterDims s si u) (x : s.Idx → α) (idx : IVec si w) (upd : u.Idx → α) (i : s.Idx) (v : α)
    (h : ∃ j : u.Idx, d.resultIdx? j idx = some i) (hv : ∀ j : u.Idx, d.resultIdx? j idx = some i → upd j = v) :
    Host.scatter d (fun _ b => b) x idx upd i = v := by
  obtain ⟨j, hj, hlast⟩ := exists_last d idx i h
  rw [scatter_set_hit d x idx upd i j hj hlast]
  exact hv j hj

end Cert.LibScatterSet

end
-- ==== Proof.RefSum.lean ====
/-
  The reference's two sums, regrouped over the kept targets.

  The mask is one exactly on the cells some target lands on, and at a kept target's cell the target map holds that
  target's values (the kept target is the last of its image to write the cell). A sum over all cells weighted by the
  mask is therefore a sum over the cells that are hit, and these correspond one to one to the kept targets: so the
  reference's count is the number of kept targets and its loss numerator the kept targets' summed penalty.
-/
import proofs.«104338_j29283087024791_2_alg».proof.Proof.RefIdx
import proofs.«104338_j29283087024791_2_alg».proof.Proof.Cells
import proofs.«104338_j29283087024791_2_alg».proof.Proof.LibScatterSet

noncomputable section

namespace Cert.RefSum

open Cert.ReferenceIdeal Cert.ReferenceIdeal.Read Idealize.ShloMosaic Idealize.ShloMosaic.ValueIdx Cert.Spec Cert.RefIdx Cert.Cells

/-- A sum over the elements that are hit is the sum over the kept points, when the kept points correspond one to one to
    the hit elements. -/
theorem sum_reindex {J Pt M : Type} [Fintype J] [Fintype Pt] [AddCommMonoid M] (i : Pt → J) (kept : Pt → Prop) (hit : J → Prop)
    [DecidablePred kept] [DecidablePred hit] (F : J → M)
    (hinj : ∀ p p', kept p → kept p' → i p = i p' → p = p') (hsurj : ∀ j, hit j → ∃ p, kept p ∧ i p = j)
    (hhit : ∀ p, kept p → hit (i p)) :
    (∑ j, if hit j then F j else 0) = ∑ p, if kept p then F (i p) else 0 := by
  rw [← Finset.sum_filter, ← Finset.sum_filter]
  symm
  refine Finset.sum_bij (fun p _ => i p) (fun p hp => ?_) (fun p hp p' hp' h => ?_) (fun j hj => ?_) (fun p _ => rfl)
  · simp only [Finset.mem_filter, Finset.mem_univ, true_and] at hp ⊢
    exact hhit p hp
  · simp only [Finset.mem_filter, Finset.mem_univ, true_and] at hp hp'
    exact hinj p p' hp hp' h
  · simp only [Finset.mem_filter, Finset.mem_univ, true_and] at hj
    obtain ⟨p, hp, rfl⟩ := hsurj j hj
    exact ⟨p, by simp [hp], rfl⟩

/-- Flattened target of image `b`, position `t`. -/
def mkN (b : Fin 32) (t : Fin 64) : Fin 2048 := ⟨b.val * 64 + t.val, by have := b.isLt; have := t.isLt; omega⟩

theorem imgOf_mkN (b : Fin 32) (t : Fin 64) : imgOf (mkN b t) = b := by
  apply Fin.ext; show (b.val * 64 + t.val) / 64 = b.val; have := t.isLt; omega
theorem posOf_mkN (b : Fin 32) (t : Fin 64) : posOf (mkN b t) = t := by
  apply Fin.ext; show (b.val * 64 + t.val) % 64 = t.val; have := t.isLt; omega
theorem mkN_img_pos (n : Fin 2048) : mkN (imgOf n) (posOf n) = n := by
  apply Fin.ext; show n.val / 64 * 64 + n.val % 64 = n.val; omega

variable (x0 : (⟨S32x7x400x400, .f32⟩ : BufTy).Contents (Elt Ideal)) (x1 : (⟨S32x64x7, .f32⟩ : BufTy).Contents (Elt Ideal))

theorem inRangeY : InRange (GY x1) := fun b t => GY_range x1 b t
theorem inRangeX : InRange (GX x1) := fun b t => GX_range x1 b t

/-- Some target's cell is this element of the mask. -/
def hit (i : S32x1x400x400.Idx) : Prop :=
  ∃ (b : Fin 32) (t : Fin 64), ix4 b (0 : Fin 1) (cellY (GY x1) b t) (cellX (GX x1) b t) = i

theorem one_word : Ideal.ofBits .f32 0x3F800000#32 = 1 := by
  simp [Ideal.ofBits, Ideal.ieee, -EReal.coe_mul]; norm_num

open Classical in
/-- The mask is one on the cells that are hit and zero elsewhere. -/
theorem mask_apply (i : S32x1x400x400.Idx) : val_main_v77 (F := Ideal) x1 i = if hit x1 i then 1 else 0 := by
  unfold val_main_v77
  by_cases h : hit x1 i
  · rw [if_pos h]
    obtain ⟨b, t, hbt⟩ := h
    rw [Cert.LibScatterSet.scatter_set_const d77 _ _ _ i (1 : EReal) ⟨ix2 b t, by rw [res77, hbt]⟩ (fun j _ => ?_)]
    simp only [val_main_v76_apply, val_main_cst_21_apply]
    exact one_word
  · rw [if_neg h, Cert.LibScatterSet.scatter_set_miss d77 _ _ _ i (fun j hj => h ?_)]
    · simp only [val_main_v53_apply, val_main_cst_13_apply]
      exact Ideal.ofBits_zero_f32
    · obtain ⟨b, t, rfl⟩ : ∃ (b : Fin 32) (t : Fin 64), j = ix2 b t := ⟨j 0, j 1, eq_ix2 j⟩
      rw [res77] at hj
      exact ⟨b, t, Option.some.inj hj⟩

/-- At a kept target's cell the target map holds the target's value, channel by channel. -/
theorem tm_kept (b : Fin 32) (t : Fin 64) (c : Fin 7) (hk : ¬ dupLater (GY x1) (GX x1) b t) :
    val_main_v52 (F := Ideal) x1 (ix4 b c (cellY (GY x1) b t) (cellX (GX x1) b t)) = x1 (ix3 b t c) := by
  unfold val_main_v52
  refine Cert.LibScatterSet.scatter_set_hit d52 _ _ x1 _ (ix3 b t c) (res52 x1 b t c) (fun j' hlt hj' => hk ?_)
  obtain ⟨b', t', c', rfl⟩ : ∃ (b' : Fin 32) (t' : Fin 64) (c' : Fin 7), j' = ix3 b' t' c' := ⟨j' 0, j' 1, j' 2, eq_ix3 j'⟩
  rw [res52] at hj'
  have he := Option.some.inj hj'
  have hb : b' = b := congrFun he (0 : Fin 4)
  have hc : c' = c := congrFun he (1 : Fin 4)
  have hy : cellY (GY x1) b' t' = cellY (GY x1) b t := congrFun he (2 : Fin 4)
  have hx : cellX (GX x1) b' t' = cellX (GX x1) b t := congrFun he (3 : Fin 4)
  subst hb hc
  have hlt' : (S32x64x7.rowMajor (ix3 b' t c')).val < (S32x64x7.rowMajor (ix3 b' t' c')).val := hlt
  rw [Shape.rowMajor_val_three, Shape.rowMajor_val_three] at hlt'
  have htt : t < t' := by
    have h2 : (b'.val * 64 + t.val) * 7 + c'.val < (b'.val * 64 + t'.val) * 7 + c'.val := hlt'
    exact Fin.lt_def.2 (by omega)
  exact ⟨t', htt, (flat_eq_iff (inRangeY x1) (inRangeX x1) b' t t').2 ⟨hy.symm, hx.symm⟩⟩

/-- The reference's per-element penalty. -/
theorem v87_apply (j : S32x7x400x400.Idx) :
    val_main_v87 (F := Ideal) x0 x1 j = sl1 (x0 j - val_main_v52 (F := Ideal) x1 j) := by
  simp only [val_main_v87_apply, val_main_v81_apply, val_main_v84_apply, val_main_v86_apply, val_main_v83_apply,
    val_main_v79_apply, val_main_v78_apply, val_main_v80_apply, val_main_v82_apply, val_main_v85_apply,
    val_main_cst_22_apply, val_main_cst_23_apply, val_main_cst_24_apply]
  rfl

/-! ## Kept targets and hit cells correspond one to one -/

theorem key_inj (b b' : Fin 32) (t t' : Fin 64) (hk : ¬ dupLater (GY x1) (GX x1) b t) (hk' : ¬ dupLater (GY x1) (GX x1) b' t')
    (hb : b = b') (hy : cellY (GY x1) b t = cellY (GY x1) b' t') (hx : cellX (GX x1) b t = cellX (GX x1) b' t') :
    mkN b t = mkN b' t' := by
  subst hb
  rw [kept_inj (inRangeY x1) (inRangeX x1) b t t' hk hk' ⟨hy, hx⟩]

/-- The mask element of flattened target `n`. -/
def cellOf (n : Fin 2048) : S32x1x400x400.Idx :=
  ix4 (imgOf n) (0 : Fin 1) (cellY (GY x1) (imgOf n) (posOf n)) (cellX (GX x1) (imgOf n) (posOf n))

/-- The array element of flattened target `n`, channel `k`. -/
def elemOf (p : Fin 2048 × Fin 7) : S32x7x400x400.Idx :=
  ix4 (imgOf p.1) p.2 (cellY (GY x1) (imgOf p.1) (posOf p.1)) (cellX (GX x1) (imgOf p.1) (posOf p.1))

theorem cellOf_inj (n n' : Fin 2048) (hk : ¬ dupLater (GY x1) (GX x1) (imgOf n) (posOf n))
    (hk' : ¬ dupLater (GY x1) (GX x1) (imgOf n') (posOf n')) (h : cellOf x1 n = cellOf x1 n') : n = n' := by
  rw [← mkN_img_pos n, ← mkN_img_pos n']
  exact key_inj x1 _ _ _ _ hk hk' (congrFun h (0 : Fin 4)) (congrFun h (2 : Fin 4)) (congrFun h (3 : Fin 4))

theorem cellOf_surj (j : S32x1x400x400.Idx) (hj : hit x1 j) :
    ∃ n : Fin 2048, ¬ dupLater (GY x1) (GX x1) (imgOf n) (posOf n) ∧ cellOf x1 n = j := by
  obtain ⟨b, t, rfl⟩ := hj
  obtain ⟨t0, hk, hy, hx⟩ := exists_kept (inRangeY x1) (inRangeX x1) b t
  refine ⟨mkN b t0, ?_, ?_⟩
  · rw [imgOf_mkN, posOf_mkN]; exact hk
  · unfold cellOf; rw [imgOf_mkN, posOf_mkN, hy, hx]

theorem elemOf_inj (p p' : Fin 2048 × Fin 7) (hk : ¬ dupLater (GY x1) (GX x1) (imgOf p.1) (posOf p.1))
    (hk' : ¬ dupLater (GY x1) (GX x1) (imgOf p'.1) (posOf p'.1)) (h : elemOf x1 p = elemOf x1 p') : p = p' := by
  refine Prod.ext ?_ (congrFun h (1 : Fin 4))
  rw [← mkN_img_pos p.1, ← mkN_img_pos p'.1]
  exact key_inj x1 _ _ _ _ hk hk' (congrFun h (0 : Fin 4)) (congrFun h (2 : Fin 4)) (congrFun h (3 : Fin 4))

theorem idx89_ix4 (jb : Fin 32) (jk : Fin 7) (jh jw : Fin 400) :
    idx_main_v89 (ix4 jb jk jh jw) = ix4 jb (0 : Fin 1) jh jw := by
  funext a
  match a with
  | ⟨0, _⟩ => rfl
  | ⟨1, _⟩ => rfl
  | ⟨2, _⟩ => rfl
  | ⟨3, _⟩ => rfl

theorem elemOf_surj (j : S32x7x400x400.Idx) (hj : hit x1 (idx_main_v89 j)) :
    ∃ p : Fin 2048 × Fin 7, ¬ dupLater (GY x1) (GX x1) (imgOf p.1) (posOf p.1) ∧ elemOf x1 p = j := by
  obtain ⟨jb, jk, jh, jw, rfl⟩ : ∃ (jb : Fin 32) (jk : Fin 7) (jh : Fin 400) (jw : Fin 400), j = ix4 jb jk jh jw :=
    ⟨j 0, j 1, j 2, j 3, eq_ix4 j⟩
  rw [idx89_ix4] at hj
  obtain ⟨b, t, hbt⟩ := hj
  have hb : b = jb := congrFun hbt (0 : Fin 4)
  have hy : cellY (GY x1) b t = jh := congrFun hbt (2 : Fin 4)
  have hx : cellX (GX x1) b t = jw := congrFun hbt (3 : Fin 4)
  obtain ⟨t0, hk, hy0, hx0⟩ := exists_kept (inRangeY x1) (inRangeX x1) b t
  refine ⟨(mkN b t0, jk), ?_, ?_⟩
  · show ¬ dupLater (GY x1) (GX x1) (imgOf (mkN b t0)) (posOf (mkN b t0))
    rw [imgOf_mkN, posOf_mkN]; exact hk
  · unfold elemOf
    show ix4 (imgOf (mkN b t0)) jk (cellY (GY x1) (imgOf (mkN b t0)) (posOf (mkN b t0))) (cellX (GX x1) (imgOf (mkN b t0)) (posOf (mkN b t0))) = _
    rw [imgOf_mkN, posOf_mkN, hy0, hx0, hy, hx, hb]

/-! ## The two sums -/

theorem zero_word25 (i : S_.Idx) : val_main_cst_25 (F := Ideal) i = 0 := by
  simp only [val_main_cst_25_apply]; exact Ideal.ofBits_zero_f32
theorem zero_word26 (i : S_.Idx) : val_main_cst_26 (F := Ideal) i = 0 := by
  simp only [val_main_cst_26_apply]; exact Ideal.ofBits_zero_f32

open Classical in
/-- The reference's count is the number of kept targets. -/
theorem num_eq (i : S_.Idx) : val_main_v88 (F := Ideal) x1 i = cntK (GY x1) (GX x1) := by
  rw [val_main_v88_apply, zero_word25]
  unfold cntK
  refine congrArg (fun z : EReal => 0 + z) ?_
  simp only [mask_apply]
  rw [sum_reindex (cellOf x1) (fun n => ¬ dupLater (GY x1) (GX x1) (imgOf n) (posOf n)) (hit x1) (fun _ => (1 : EReal))
    (cellOf_inj x1) (cellOf_surj x1) (fun n _ => ⟨imgOf n, posOf n, rfl⟩)]
  refine Finset.sum_congr rfl (fun n _ => ?_)
  unfold keepF
  by_cases h : dupLater (GY x1) (GX x1) (imgOf n) (posOf n) <;> simp [h]

open Classical in
/-- The reference's loss numerator is the kept targets' summed penalty. -/
theorem loss_eq (i : S_.Idx) : val_main_v91 (F := Ideal) x0 x1 i = lossK x0 x1 (GY x1) (GX x1) := by
  rw [val_main_v91_apply, zero_word26]
  unfold lossK
  refine congrArg (fun z : EReal => 0 + z) ?_
  have hL : ∀ j : S32x7x400x400.Idx, val_main_v90 (F := Ideal) x0 x1 j
      = if hit x1 (idx_main_v89 j) then sl1 (x0 j - val_main_v52 (F := Ideal) x1 j) else 0 := by
    intro j
    rw [val_main_v90_apply, val_main_v89_apply, mask_apply, v87_apply]
    show sl1 _ * (if _ then 1 else 0) = _
    split_ifs <;> simp
  simp only [hL]
  rw [sum_reindex (elemOf x1) (fun p => ¬ dupLater (GY x1) (GX x1) (imgOf p.1) (posOf p.1)) (fun j => hit x1 (idx_main_v89 j))
    (fun j => sl1 (x0 j - val_main_v52 (F := Ideal) x1 j)) (elemOf_inj x1) (elemOf_surj x1)
    (fun p _ => by
      show hit x1 (idx_main_v89 (ix4 _ _ _ _))
      rw [idx89_ix4]; exact ⟨imgOf p.1, posOf p.1, rfl⟩)]
  rw [Fintype.sum_prod_type]
  refine Finset.sum_congr rfl (fun n _ => ?_)
  rw [zero_add]
  refine Finset.sum_congr rfl (fun k _ => ?_)
  unfold keepF
  by_cases h : dupLater (GY x1) (GX x1) (imgOf n) (posOf n)
  · simp [h]
  · simp only [h, not_false_eq_true, if_true, if_false, mul_one]
    show sl1 (x0 (elemOf x1 (n, k)) - val_main_v52 (F := Ideal) x1 (elemOf x1 (n, k))) = _
    unfold elemOf
    rw [tm_kept x1 _ _ _ h]

end Cert.RefSum

end
-- ==== Proof.RefFinal.lean ====
/-
  The reference's two results in terms of the targets' cells: the kept targets' summed penalty divided by their number
  plus the small constant, and their number.
-/
import proofs.«104338_j29283087024791_2_alg».proof.Proof.RefSum

noncomputable section

namespace Cert.RefFinal

open Cert.ReferenceIdeal Cert.ReferenceIdeal.Read Idealize.ShloMosaic Idealize.ShloMosaic.ValueIdx Cert.Spec Cert.RefIdx Cert.RefSum

theorem loss_result (x0 : (⟨S32x7x400x400, .f32⟩ : BufTy).Contents (Elt Ideal)) (x1 : (⟨S32x64x7, .f32⟩ : BufTy).Contents (Elt Ideal)) :
    val_main_v93 (F := Ideal) x0 x1
      = Host.divf (F := Ideal) (fun _ : S_.Idx => lossK x0 x1 (val_main_v13 (F := Ideal) x1) (val_main_v6 (F := Ideal) x1))
          (addf (F := Ideal) (fun _ : S_.Idx => cntK (val_main_v13 (F := Ideal) x1) (val_main_v6 (F := Ideal) x1))
            (constant (F := Ideal) S_ .f32 0x358637BD#32)) := by
  funext i
  rw [val_main_v93_apply, val_main_v92_apply, loss_eq, num_eq]
  rfl

theorem count_result (x1 : (⟨S32x64x7, .f32⟩ : BufTy).Contents (Elt Ideal)) :
    val_main_v88 (F := Ideal) x1 = fun _ : S_.Idx => cntK (val_main_v13 (F := Ideal) x1) (val_main_v6 (F := Ideal) x1) := by
  funext i
  rw [num_eq]

end Cert.RefFinal

end
-- ==== Proof.lean ====
/-
  A detection loss, computed two ways, is one function of the predictions and the targets over the extended reals.

  Every target (b, t) has a cell in a 400 × 400 grid: its first two values scaled by 5, floored, clamped between 0 and
  399 and truncated. The reference writes each target's seven values into a zero array at its cell and a one into a
  zero mask there (a later target of the same image overwriting an earlier one with the same cell), and sums the
  smooth-L1 penalty of predictions minus that array, weighted by the mask, over all 32 · 7 · 400 · 400 elements; the
  count is the mask's sum. The kernel's program instead marks the targets that no later target of their image
  overwrites, gathers the predictions at each target's cell, and sums the penalty over the kept targets only.

  The two agree because the mask is one exactly on the cells that are hit, the hit cells of an image correspond one to
  one to its kept targets (the kept target of a cell is the last one written there, so the array holds its values),
  and a sum of terms that vanish off the hit cells is the sum over the hit cells. No finiteness of the inputs is used:
  the cell words lie in [0, 399] for every extended real, and a product with a zero weight is zero.
-/
import proofs.«104338_j29283087024791_2_alg».proof.Defs
import proofs.«104338_j29283087024791_2_alg».proof.Proof.Gen.Kernel
import proofs.«104338_j29283087024791_2_alg».proof.Proof.Gen.KernelIdeal
import proofs.«104338_j29283087024791_2_alg».proof.Proof.Gen.ReferenceIdeal
import proofs.«104338_j29283087024791_2_alg».proof.Proof.Gen.ReferenceIdeal.Run
import proofs.«104338_j29283087024791_2_alg».proof.Proof.Gen.ReferenceIdeal.Read
import proofs.«104338_j29283087024791_2_alg».proof.Proof.Gen.Pre_finite_inputs
import proofs.«104338_j29283087024791_2_alg».proof.Proof.FrameBits
import proofs.«104338_j29283087024791_2_alg».proof.Proof.FrameIdeal
import proofs.«104338_j29283087024791_2_alg».proof.Proof.KFinal
import proofs.«104338_j29283087024791_2_alg».proof.Proof.RefFinal

noncomputable section

namespace Cert.Proof

open Idealize.ShloMosaic Idealize.ShloMosaic.TcCoe Idealize.SL.Sem

/-- The kernel's program terminates without fault and leaves its two argument arrays as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run, with the results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => ⟨(h c).2.2.1, (h c).2.2.2⟩)
    (Cert.ReferenceIdeal.Value.run (F := Ideal) m ρ)

/-- Both programs end with the kept targets' summed penalty divided by their number plus the small constant, and with
    their number. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.HandValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v93_eq, (hagree c).1, (hagree c).2, Cert.RefFinal.loss_result,
      Cert.KernelIdeal.HandFinal.lossOut_eq, Cert.KernelIdeal.HandFinal.cntOut_eq]
  · rw [(h c).2.1, Cert.ReferenceIdeal.Read.val_main_v88_eq, (hagree c).2, Cert.RefFinal.count_result,
      Cert.KernelIdeal.HandFinal.cntOut_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
